-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x2048 : Shape := ⟨2, ![6144, 2048]⟩
abbrev S_ : Shape := ⟨0, ![]⟩

class Facts : Prop where
  bcast_S_S6144x2048 : S_.BroadcastsInDim S6144x2048 (![] : Fin 0 → Fin S6144x2048.rank)
  reducesTo_S6144x2048_S_d0_1 : S6144x2048.ReducesTo [0, 1] S_
  h_S_ : 0 < S_.numel

variable [Facts]

def fn {F : FTy → Type} [FloatOps F] (main_arg0 : FVec F S6144x2048 .f32) : IVec S_ 1 :=
  let main_v0 : FVec F S6144x2048 .f32 := Host.absf main_arg0
  let main_cst : FVec F S_ .f32 := constant S_ .f32 0x7F800000#32
  let main_v1 : FVec F S6144x2048 .f32 := broadcastInDim S6144x2048 ![] bcast_S_S6144x2048 main_cst
  let main_v2 : IVec S6144x2048 1 := cmpf .olt main_v0 main_v1
  let main_c : IVec S_ 1 := constantI S_ 1 1#1
  let main_v3 : IVec S_ 1 := (fun x v => Host.reduce IntOp.andi x v reducesTo_S6144x2048_S_d0_1 h_S_) main_v2 main_c
  main_v3
-- ==== Kernel.lean ====
abbrev S6144x2048 : Shape := ⟨2, ![6144, 2048]⟩
abbrev S6144x1 : Shape := ⟨2, ![6144, 1]⟩
abbrev S1x2048 : Shape := ⟨2, ![1, 2048]⟩
abbrev S1024x2048 : Shape := ⟨2, ![1024, 2048]⟩
abbrev S1024x1 : Shape := ⟨2, ![1024, 1]⟩
abbrev S1024 : Shape := ⟨1, ![1024]⟩
abbrev S2048 : Shape := ⟨1, ![2048]⟩
abbrev S_ : Shape := ⟨0, ![]⟩
abbrev S1x6144 : Shape := ⟨2, ![1, 6144]⟩
abbrev S2048x1 : Shape := ⟨2, ![2048, 1]⟩
abbrev S8192x8192 : Shape := ⟨2, ![8192, 8192]⟩
abbrev S1024x1024 : Shape := ⟨2, ![1024, 1024]⟩
abbrev S1x1024 : Shape := ⟨2, ![1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S6144x2048, .f32⟩
  | .hbm, ⟨1, _⟩ => ⟨S6144x1, .f32⟩
  | .hbm, ⟨2, _⟩ => ⟨S1x2048, .f32⟩
  | .hbm, ⟨3, _⟩ => ⟨S_, .f32⟩
  | .hbm, ⟨4, _⟩ => ⟨S6144x1, .f32⟩
  | .hbm, ⟨5, _⟩ => ⟨S6144x1, .f32⟩
  | .hbm, ⟨6, _⟩ => ⟨S6144x1, .f32⟩
  | .hbm, ⟨7, _⟩ => ⟨S1x6144, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S2048x1, .f32⟩
  | .hbm, ⟨13, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1x2048, .f32⟩
  | .local _ .vmem, ⟨5, _⟩ => ⟨S1024x1024, .f32⟩
  | .local _ .vmem, ⟨6, _⟩ => ⟨S1024x1024, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![8, 8], ![false, false]⟩

def k1_cond1 (i : grid1.Coords) : BitVec 1 :=
  let arg0 : BitVec 32 := BitVec.ofNat 32 (i 0).val
  let arg1 : BitVec 32 := BitVec.ofNat 32 (i 1).val
  let v0 : BitVec 1 := Scalar.cmpi .eq arg0 arg1
  let v10 : BitVec 32 := Scalar.extui v0
  let c0_i32 : BitVec 32 := 0#32
  let v11 : BitVec 1 := Scalar.cmpi .ne v10 c0_i32
  v11

def k1_cond2 (i : grid1.Coords) : BitVec 1 :=
  let arg0 : BitVec 32 := BitVec.ofNat 32 (i 0).val
  let c6_i32 : BitVec 32 := 6#32
  let v1 : BitVec 1 := Scalar.cmpi .slt arg0 c6_i32
  let arg1 : BitVec 32 := BitVec.ofNat 32 (i 1).val
  let c6_i32_0 : BitVec 32 := 6#32
  let v2 : BitVec 1 := Scalar.cmpi .sge arg1 c6_i32_0
  let v3 : BitVec 1 := Scalar.andi v1 v2
  let v12 : BitVec 32 := Scalar.extui v3
  let c0_i32_3 : BitVec 32 := 0#32
  let v13 : BitVec 1 := Scalar.cmpi .ne v12 c0_i32_3
  v13

def k1_cond3 (i : grid1.Coords) : BitVec 1 :=
  let arg0 : BitVec 32 := BitVec.ofNat 32 (i 0).val
  let c6_i32_1 : BitVec 32 := 6#32
  let v4 : BitVec 1 := Scalar.cmpi .sge arg0 c6_i32_1
  let arg1 : BitVec 32 := BitVec.ofNat 32 (i 1).val
  let c6_i32_2 : BitVec 32 := 6#32
  let v5 : BitVec 1 := Scalar.cmpi .slt arg1 c6_i32_2
  let v6 : BitVec 1 := Scalar.andi v4 v5
  let v14 : BitVec 32 := Scalar.extui v6
  let c0_i32_4 : BitVec 32 := 0#32
  let v15 : BitVec 1 := Scalar.cmpi .ne v14 c0_i32_4
  v15

def k1_cond4 (i : grid1.Coords) : BitVec 1 :=
  let arg0 : BitVec 32 := BitVec.ofNat 32 (i 0).val
  let arg1 : BitVec 32 := BitVec.ofNat 32 (i 1).val
  let v0 : BitVec 1 := Scalar.cmpi .eq arg0 arg1
  let c6_i32 : BitVec 32 := 6#32
  let v1 : BitVec 1 := Scalar.cmpi .slt arg0 c6_i32
  let c6_i32_0 : BitVec 32 := 6#32
  let v2 : BitVec 1 := Scalar.cmpi .sge arg1 c6_i32_0
  let v3 : BitVec 1 := Scalar.andi v1 v2
  let c6_i32_1 : BitVec 32 := 6#32
  let v4 : BitVec 1 := Scalar.cmpi .sge arg0 c6_i32_1
  let c6_i32_2 : BitVec 32 := 6#32
  let v5 : BitVec 1 := Scalar.cmpi .slt arg1 c6_i32_2
  let v6 : BitVec 1 := Scalar.andi v4 v5
  let v7 : BitVec 1 := Scalar.ori v3 v6
  let v8 : BitVec 1 := Scalar.ori v0 v7
  let v_true : BitVec 1 := 1#1
  let v9 : BitVec 1 := Scalar.xori v8 v_true
  let v16 : BitVec 32 := Scalar.extui v9
  let c0_i32_5 : BitVec 32 := 0#32
  let v17 : BitVec 1 := Scalar.cmpi .ne v16 c0_i32_5
  v17

def cc1_transform_0 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c6_i32_0 : BitVec 32 := 6#32
  let v1 : BitVec 1 := Scalar.cmpi .sge arg1 c6_i32_0
  let v2 : BitVec 1 := Scalar.andi v0 v1
  let c6_i32_1 : BitVec 32 := 6#32
  let v3 : BitVec 1 := Scalar.cmpi .sge arg0 c6_i32_1
  let c6_i32_2 : BitVec 32 := 6#32
  let v4 : BitVec 1 := Scalar.cmpi .slt arg1 c6_i32_2
  let v5 : BitVec 1 := Scalar.andi v3 v4
  let c6_i32_3 : BitVec 32 := 6#32
  let v6 : BitVec 1 := Scalar.cmpi .slt arg0 c6_i32_3
  let c0_i32 : BitVec 32 := 0#32
  let v7 : BitVec 32 := Scalar.select v6 arg0 c0_i32
  let c6_i32_4 : BitVec 32 := 6#32
  let v8 : BitVec 1 := Scalar.cmpi .slt arg0 c6_i32_4
  let c6_i32_5 : BitVec 32 := 6#32
  let v9 : BitVec 32 := Scalar.subi arg0 c6_i32_5
  let c0_i32_6 : BitVec 32 := 0#32
  let v10 : BitVec 32 := Scalar.select v8 c0_i32_6 v9
  let v11 : BitVec 32 := Scalar.select v5 arg1 v7
  let v12 : BitVec 32 := Scalar.select v2 arg0 v11
  let c6_i32_7 : BitVec 32 := 6#32
  let v13 : BitVec 32 := Scalar.subi arg1 c6_i32_7
  let c6_i32_8 : BitVec 32 := 6#32
  let v14 : BitVec 32 := Scalar.subi arg0 c6_i32_8
  let v15 : BitVec 32 := Scalar.select v5 v14 v10
  let v16 : BitVec 32 := Scalar.select v2 v13 v15
  let c0_i32_9 : BitVec 32 := 0#32
  ![v12.toNat, v16.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1024x2048_S2048 : S1024x2048.Reduces [0] S2048
  shapeCasts_S2048_S1x2048 : S2048.ShapeCasts S1x2048
  bcast_S_S6144x1 : S_.BroadcastsInDim S6144x1 (![] : Fin 0 → Fin S6144x1.rank)
  transposes_S6144x1_S1x6144_1_0 : S6144x1.Transposes [1, 0] S1x6144
  bcast_S_S1x2048 : S_.BroadcastsInDim S1x2048 (![] : Fin 0 → Fin S1x2048.rank)
  transposes_S1x2048_S2048x1_1_0 : S1x2048.Transposes [1, 0] S2048x1
  shapeCasts_S1024x1_S1024x1 : S1024x1.ShapeCasts S1024x1
  iota_S1024x1024_d0_w32 : S1024x1024.Iotas .tc 32 [0]
  iota_S1024x1024_d1_w32 : S1024x1024.Iotas .tc 32 [1]
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S1024x1024_p1_0_S1024x1024 : S1024x1024.Transposes [1, 0] S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S6144x2048.size a
  hwx0_0 : ∀ i : grid0.Coords, EltTy.bits .f32 = 32 ∨ (Rect.block (s := S6144x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S6144x1.size a
  hwx0_1 : ∀ i : grid0.Coords, EltTy.bits .f32 = 32 ∨ (Rect.block (s := S6144x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S6144x2048.size a
  hwx1_0 : ∀ i : grid1.Coords, EltTy.bits .f32 = 32 ∨ (Rect.block (s := S6144x2048) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S6144x1.size a
  hwx1_1 : ∀ i : grid1.Coords, EltTy.bits .f32 = 32 ∨ (Rect.block (s := S6144x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x2048.size a
  hwx1_4 : ∀ i : grid1.Coords, EltTy.bits .f32 = 32 ∨ (Rect.block (s := S1x2048) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) && !(k1_cond3 i == 1#1) && !(k1_cond4 i == 1#1) | ⟨_ + 6, h⟩ => absurd h (Nat.not_lt.2 (Nat.le_add_left _ _))

class Facts : Prop extends Facts₀ where

variable [Facts]
-- ==== ReferenceIdeal.lean ====
abbrev S6144x2048 : Shape := ⟨2, ![6144, 2048]⟩
abbrev S6144x6144 : Shape := ⟨2, ![6144, 6144]⟩
abbrev S_ : Shape := ⟨0, ![]⟩
abbrev S6144x8192 : Shape := ⟨2, ![6144, 8192]⟩
abbrev S2048x6144 : Shape := ⟨2, ![2048, 6144]⟩
abbrev S2048x2048 : Shape := ⟨2, ![2048, 2048]⟩
abbrev S2048x8192 : Shape := ⟨2, ![2048, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x6144, .i32⟩
  | .hbm, ⟨2, _⟩ => ⟨S6144x6144, .i32⟩
  | .hbm, ⟨3, _⟩ => ⟨S_, .i32⟩
  | .hbm, ⟨4, _⟩ => ⟨S6144x6144, .i32⟩
  | .hbm, ⟨5, _⟩ => ⟨S6144x6144, .i32⟩
  | .hbm, ⟨6, _⟩ => ⟨S6144x6144, .i1⟩
  | .hbm, ⟨7, _⟩ => ⟨S6144x6144, .f32⟩
  | .hbm, ⟨8, _⟩ => ⟨S6144x8192, .f32⟩
  | .hbm, ⟨9, _⟩ => ⟨S2048x6144, .f32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .f32⟩
  | .hbm, ⟨17, _⟩ => ⟨S2048x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  bcast_S_S6144x6144 : S_.BroadcastsInDim S6144x6144 (![] : Fin 0 → Fin S6144x6144.rank)
  concatenates_S6144x6144_S6144x2048_S6144x8192_d1 : Shape.Concatenates [S6144x6144, S6144x2048] S6144x8192 1
  transposes_S6144x2048_S2048x6144_1_0 : S6144x2048.Transposes [1, 0] S2048x6144
  bcast_S_S2048x2048 : S_.BroadcastsInDim S2048x2048 (![] : Fin 0 → Fin S2048x2048.rank)
  concatenates_S2048x6144_S2048x2048_S2048x8192_d1 : Shape.Concatenates [S2048x6144, S2048x2048] S2048x8192 1
  concatenates_S6144x8192_S2048x8192_S8192x8192_d0 : Shape.Concatenates [S6144x8192, S2048x8192] S8192x8192 0
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.K.Data.lean ====
/-
  The proof data of the two kernel launches, stated explicitly over the kernels' arithmetic.

  Launch 0 walks the association matrix in six row tiles of 1024 rows. At tile `t` it writes the tile's row sums
  (a 1024 × 1 block of the first result) and keeps a running 1 × 2048 accumulator of column sums: cleared at the first
  tile, then each tile's column sums added; the accumulator's buffer is written back after the last tile only.
  Launch 1 walks the 8 × 8 tiles of the 8192 × 8192 result; a tile on the diagonal, in the cell–drug block, in the
  drug–cell block or elsewhere stores, respectively, the scaled identity, the scaled association tile, the scaled
  transposed tile, or zeros — exactly one of the four at every tile.
  Everything here is a definition over the contents `V` the launch finds in memory; the proofs that the kernels'
  bodies meet these data are in the modules that import this one.
-/
import proofs.«126346_j4002909520738_2_alg».proof.Proof.Gen.Kernel.Launch
import proofs.«126346_j4002909520738_2_alg».proof.Proof.Gen.Kernel.Skeleton
import proofs.«126346_j4002909520738_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the memory contents a launch is entered from: the parameter both launches' data are stated at
variable (V : (c : Dev nD) → (b : Ref sig .tc) → Buf (Elt F) ((c : Thread nD τ).loc b))

/-! ## Launch 0: row sums and the column-sum accumulator -/

/-- Window `w`'s block at tile `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column-sum accumulator after tile `n`: the first tile's column sums added to zeros, then every later tile's
    column sums added to what the tile before left. -/
def acc0 (c : Dev nD) : (n : ℕ) → n < cfg0.N → Vec F S1x2048 .f32
  | 0, hn => k0_pay3 (iblk0 V c 0 ⟨0, hn⟩) (k0_pay2 (F := F))
  | n + 1, hn => k0_pay3 (iblk0 V c 0 ⟨n + 1, hn⟩) (acc0 c n (Nat.lt_of_succ_lt hn))

theorem acc0_zero (c : Dev nD) (hn : 0 < cfg0.N) : acc0 V c 0 hn = k0_pay3 (iblk0 V c 0 ⟨0, hn⟩) (k0_pay2 (F := F)) := rfl
theorem acc0_succ (c : Dev nD) (n : ℕ) (hn : n + 1 < cfg0.N) :
    acc0 V c (n + 1) hn = k0_pay3 (iblk0 V c 0 ⟨n + 1, hn⟩) (acc0 V c n (Nat.lt_of_succ_lt hn)) := rfl

/-- Launch 0's proof data: the arrays as found; after tile `t` the input's buffer at its block, the row-sum buffer at
    the tile's row sums, the accumulator's buffer at `acc0`; the untouched rest of the core as invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]
theorem after0_2 (c : Dev nD) (t : Fin cfg0.N) : (dat0 V c).after 2 t = acc0 V c t.val t.isLt := by dsimp only [dat0]

/-! ## Launch 1: the result's tiles -/

/-- Window `w`'s block at tile `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What tile `t` of the result holds after the body: by the tile's position, the scaled identity (from the two degree
    columns), the scaled association tile (matrix tile, cell column, drug row), the scaled transposed tile (matrix tile,
    drug column, cell row), or zeros. -/
def out1 (c : Dev nD) (t : Fin cfg1.N) : Vec F S1024x1024 .f32 :=
  if k1_cond1 (grid1.coords t) = 1#1 then k1_pay1 (grid1.coords t) (iblk1 V c 1 t) (iblk1 V c 2 t)
  else if k1_cond2 (grid1.coords t) = 1#1 then k1_pay2 (iblk1 V c 0 t) (iblk1 V c 1 t) (iblk1 V c 4 t)
  else if k1_cond3 (grid1.coords t) = 1#1 then k1_pay3 (iblk1 V c 0 t) (iblk1 V c 2 t) (iblk1 V c 3 t)
  else k1_pay4 (F := F)

/-- Launch 1's proof data: the arrays as found; after tile `t` each input's buffer at its block and the result's buffer
    at `out1`; the untouched rest of the core as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

end Cert.Kernel.Hand

end
-- ==== Proof.K.Fold.lean ====
/-
  The memory contents at each boundary of the program: launch, after launch 0 (its two result arrays at what its
  write-backs leave, everything else as launched), after the host operations between the launches (the two degree
  vectors and their transposes computed from the sums), after launch 1 (the result array at what its write-backs leave).
  The argument array is written by no launch and no host operation, so it reads the same at every boundary.
-/
import proofs.«126346_j4002909520738_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch (launch 0's entry: no host operation precedes it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At launch 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations between the launches (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At launch 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation between the launches writes the argument array. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument array ends as launched: launch 1 reads it through an input window, the host operations do not write
    it, launch 0 reads it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_main_arg0 m ρ c
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

end Cert.Kernel.Hand

end
-- ==== Proof.K.Run.lean ====
/-
  The program's run. @main is launch 0, the host operations that turn the sums into degree factors, launch 1. Given
  the two launches' body obligations (each kernel body, at every grid point, leaves its buffers as the proof data say),
  every weakly fair execution terminates without a fault and ends with every buffer outside the launches' staging at
  the last boundary's contents: in particular the argument array as launched and the result array at what launch 1's
  write-backs leave.
-/
import proofs.«126346_j4002909520738_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two body obligations, at any entry contents. -/
abbrev Body0 : Prop := ∀ (V : (c : Dev nD) → (b : Ref sig .tc) → Buf (Elt F) ((c : Thread nD τ).loc b)) (c : Dev nD),
  BodyObligation (dat0 (F := F) V c) (defs₀ (F := F)) Variants.none () Set.univ
abbrev Body1 : Prop := ∀ (V : (c : Dev nD) → (b : Ref sig .tc) → Buf (Elt F) ((c : Thread nD τ).loc b)) (c : Dev nD),
  BodyObligation (dat1 (F := F) V c) (defs₀ (F := F)) Variants.none () Set.univ

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

variable (hb0 : Body0 (F := F)) (hb1 : Body1 (F := F))

set_option backward.isDefEq.respectTransparency.types false in
/-- Launch 0 as a segment: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- No host operation between the launches allocates a buffer. -/
theorem hostOps1_fresh : (hostOps1 : List (HloOp τ sig (Elt F))).Forall fun op => op.fresh = ∅ := by
  simp only [List.Forall]; repeat' constructor

/-- @main's three segments in order. -/
abbrev segs : List (Pipeline.Seg (pcfgs (F := F)) adm (pdats m ρ) () defs₀ 𝒱₀ L lv) :=
  [ .region (reg0 m ρ hb0),
    .host (hseg hostOps1 hostOps1_sub hostOps1_fresh (W1 m ρ)),
    .region (reg1 m ρ hb1) ]
/-- @main is the run of the segments. -/
theorem main_run (c : Dev nD) : main (F := F) c = Pipeline.Seg.run (segs m ρ hb0 hb1) := (main_chain c).trans (by chain_rfl)

include hb0 hb1 in
set_option backward.isDefEq.respectTransparency.types false in
/-- THE RUN: from any memory with zero counters every weakly fair execution of @main terminates, nothing faulting, and
    in every final state each buffer outside the staging holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

include hb0 hb1 in
/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_main m ρ hb0 hb1)

include hb0 hb1 in
/-- The run with the result array named: it ends at what launch 1's write-backs leave, the argument as launched. -/
theorem run_result : θ_run defs (onTc (τ := τ) (main (F := F))) ⟨m, fun _ => 0, ρ⟩ (fun r => ∀ c : Dev nD,
      r.2.mem ((c.tc : Thread nD τ).loc main_v9) = (dat1 (V2 m ρ) c).arrAt 5 cfg1.N
      ∧ r.2.mem ((c.tc : Thread nD τ).loc main_arg0) = m ((c.tc : Thread nD τ).loc main_arg0)) :=
  (θ_run defs _ _).mono (fun _ h c => ⟨(h c _ (mem_uc main_v9 (by decide))).trans (W3_arr m ρ c 5),
    (h c _ (mem_uc main_arg0 (by decide))).trans (W3_main_arg0 m ρ c)⟩) (run_main m ρ hb0 hb1)

end Cert.Kernel.Hand

end
-- ==== Proof.K.StatsRun.lean ====
/-
  The statistics kernel's body on any whole staging buffers, one triple per control case.

  The body reads the 1024 × 2048 input tile, stores the tile's row sums over the row-sum buffer, clears the 1 × 2048
  accumulator at the first tile only, then stores the accumulator plus the tile's column sums. Every load and store is of
  a whole buffer, so each buffer ends at the payload of its last store, and a load after a store reads that payload.
-/
import proofs.«126346_j4002909520738_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Offsets `![0, 0]` are the zero offsets. -/
theorem hz0 : (![0, 0] : Fin 2 → Nat) = fun _ => 0 := funext fun a => by fin_cases a <;> rfl

/-- The condition of the body's one conditional: "this is tile 0", from the grid coordinates. -/
abbrev cond0 (i : grid0.Coords) : Prop :=
  (Scalar.cmpi .ne (Scalar.extui (Scalar.cmpi .eq (BitVec.ofNat 32 (i 0).val) 0#32)) 0#32) = 1#1

/-- It holds at the first tile only: decided over the six tiles. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later tile: the accumulator's buffer, found at `xo`, ends at `xo` plus the tile's column sums; the row-sum buffer,
    found at anything, ends at the tile's row sums; the input's buffer is only read. -/
theorem sound_kernel0_B (c : Dev nD) (E : Set ℕ) (i : grid0.Coords)
    (arg1 : Memref sig .tc .vmem S1024x2048 .f32) (harg1 : arg1.IsWhole)
    (arg2 : Memref sig .tc .vmem S1024x1 .f32) (harg2 : arg2.IsWhole)
    (arg3 : Memref sig .tc .vmem S1x2048 .f32) (harg3 : arg3.IsWhole) (hc : ¬cond0 i)
    (x0 : Vec F S1024x2048 .f32) (xo : Vec F S1x2048 .f32) (K : PUnit → sProp 𝕄) :
    iprop(owns (c : Thread nD τ) arg1 fullShare x0 ∗ (∃ d, owns (c : Thread nD τ) arg2 fullShare d)
        ∗ owns (c : Thread nD τ) arg3 fullShare xo
        ∗ (iprop(owns (c : Thread nD τ) arg1 fullShare x0 ∗ owns (c : Thread nD τ) arg2 fullShare (k0_pay1 x0)
            ∗ owns (c : Thread nD τ) arg3 fullShare (k0_pay3 x0 xo)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz0 inb_S1024x1_S1024x1_0_0 y⟩),
      View.canon_unit_zero hz0]
    simp only [View.readAt_eq_ld, harg1.read_unread, View.ld_unit_zero (S := S1024x2048) hz0]
  iexists _; isplitr
  swap; · iexact H2
  ipureintro
  rw [View.read_writes_eq_canon _ _ _ (fun y => ⟨_, List.mem_singleton_self _, View.mem_set_unit_zero hz0 inb_S1x2048_S1x2048_0_0 y⟩),
    View.canon_unit_zero hz0]
  simp only [View.readAt_eq_ld, harg1.read_unread, harg3.read_unread, View.ld_unit_zero (S := S1024x2048) hz0,
    View.ld_unit_zero (S := S1x2048) hz0]

set_option maxHeartbeats 1000000 in
/-- The first tile: the accumulator's buffer, found at anything, is cleared, read back, and ends at zeros plus the tile's
    column sums; the row-sum buffer, found at anything, ends at the tile's row sums; the input's buffer is only read. -/
theorem sound_kernel0_A (c : Dev nD) (E : Set ℕ) (i : grid0.Coords)
    (arg1 : Memref sig .tc .vmem S1024x2048 .f32) (harg1 : arg1.IsWhole)
    (arg2 : Memref sig .tc .vmem S1024x1 .f32) (harg2 : arg2.IsWhole)
    (arg3 : Memref sig .tc .vmem S1x2048 .f32) (harg3 : arg3.IsWhole) (hc : cond0 i)
    (x0 : Vec F S1024x2048 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (k0_pay1 x0)
            ∗ owns (c : Thread nD τ) arg3 fullShare (k0_pay3 x0 (k0_pay2 (F := F)))) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  obtain rfl := harg1.eq_unread hf0
  sl_exec (disch := first | exact hc)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz0 inb_S1024x1_S1024x1_0_0 y⟩),
      View.canon_unit_zero hz0]
    simp only [View.readAt_eq_ld, harg1.read_unread, View.ld_unit_zero (S := S1024x2048) hz0]
  iexists _; isplitr
  swap; · iexact H2
  ipureintro
  sl_unfold_words
  rw [View.read_writes_eq_canon _ _ _ (fun y => ⟨_, List.mem_cons_self .., View.mem_set_unit_zero hz0 inb_S1x2048_S1x2048_0_0 y⟩),
    View.canon_cons_unit_zero (S := S1x2048) hz0, View.readCov_unit_zero (S := S1x2048) _ hz0]
  simp only [View.readAt_eq_ld, harg1.read_unread, View.ld_unit_zero (S := S1024x2048) hz0]

end Cert.Kernel.Hand

end
-- ==== Proof.K.StatsBody.lean ====
/-
  The statistics kernel's body obligation: at every tile, from what the launch's proof data say each window's staging
  buffer holds before the body, the body leaves what they say it holds after.

  The input's buffer holds the tile (fetched at every tile). The row-sum buffer is written back at every tile and the body
  overwrites it whole, so what it held does not matter. The accumulator's buffer is written back after the last tile only:
  at the first tile it is cleared by the body itself, and at a later tile it still holds what the body left one tile
  earlier, to which the tile's column sums are added — the recursion of `acc0`.
-/
import proofs.«126346_j4002909520738_2_alg».proof.Proof.K.StatsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the staging buffers hold before the body -/

/-- The input window's current staging buffer holds its tile at every point, for any proof data whose array is the
    entry contents and whose body leaves the tile in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- At a tile after the first, the accumulator's buffer holds what the body left one tile earlier: the buffer is written
    back after the last tile only, so not between the two; the window is live and uncut. -/
theorem before0_2_later (c : Dev nD) (t : Fin cfg0.N) (h0 : ¬t.val = 0) (d) :
    (dat0 V c).before 2 t d = acc0 V c (t.val - 1) (Nat.lt_of_le_of_lt (Nat.sub_le _ _) t.isLt) := by
  have hN : t.val < 6 := lt_of_lt_of_eq t.isLt (show cfg0.N = 6 from N_0)
  rw [Dat.before_out_kept _ 2 rfl t h0 (Bool.eq_false_iff.mpr fun h => by have := (flush0_2 _).mp h; dsimp only at this; omega)
    (fun _ => rfl) (fun _ _ => rfl)]
  dsimp only [dat0]

/-! ## The accumulator, by the tile's case -/

/-- After the first tile: zeros plus the tile's column sums. -/
theorem acc0_first (c : Dev nD) (t : Fin cfg0.N) (h0 : t.val = 0) :
    acc0 V c t.val t.isLt = k0_pay3 (iblk0 V c 0 t) (k0_pay2 (F := F)) := by
  obtain ⟨n, hn⟩ := t
  cases n with
  | zero => exact acc0_zero V c hn
  | succ n => exact absurd h0 (Nat.succ_ne_zero n)

/-- After a later tile: what the tile before left plus the tile's column sums. -/
theorem acc0_later (c : Dev nD) (t : Fin cfg0.N) (h0 : ¬t.val = 0) :
    acc0 V c t.val t.isLt
      = k0_pay3 (iblk0 V c 0 t) (acc0 V c (t.val - 1) (Nat.lt_of_le_of_lt (Nat.sub_le _ _) t.isLt)) := by
  obtain ⟨n, hn⟩ := t
  cases n with
  | zero => exact absurd rfl h0
  | succ n => exact acc0_succ V c n hn

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any tile: the input's buffer holds the tile; the tile's number says which case it is in, and at a later
    tile the accumulator's buffer holds what the tile before left; so that case's triple applies. The invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [acc0_first V c t h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_later V c t h0]
    simp only [before0_2_later V c t h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) _ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.BuildFacts.lean ====
/-
  Facts about the build kernel's grid that its body's proof stands on, each decided over the 64 tiles: exactly one of
  the four conditionals is taken at every tile, so the result's buffer is written at every tile.
-/
import proofs.«126346_j4002909520738_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a rank-2 block are zero on both axes. -/
theorem build_zero2 : (![0, 0] : Fin 2 → Nat) = fun _ => 0 := funext fun a => by fin_cases a <;> rfl

/-- At every tile exactly one of the four conditionals is taken: the diagonal, the cell–drug block, the drug–cell
    block, or the rest. -/
theorem build_cases : ∀ t : Fin cfg1.N,
    (k1_cond1 (grid1.coords t) = 1#1 ∧ ¬ k1_cond2 (grid1.coords t) = 1#1 ∧ ¬ k1_cond3 (grid1.coords t) = 1#1 ∧ ¬ k1_cond4 (grid1.coords t) = 1#1)
    ∨ (¬ k1_cond1 (grid1.coords t) = 1#1 ∧ k1_cond2 (grid1.coords t) = 1#1 ∧ ¬ k1_cond3 (grid1.coords t) = 1#1 ∧ ¬ k1_cond4 (grid1.coords t) = 1#1)
    ∨ (¬ k1_cond1 (grid1.coords t) = 1#1 ∧ ¬ k1_cond2 (grid1.coords t) = 1#1 ∧ k1_cond3 (grid1.coords t) = 1#1 ∧ ¬ k1_cond4 (grid1.coords t) = 1#1)
    ∨ (¬ k1_cond1 (grid1.coords t) = 1#1 ∧ ¬ k1_cond2 (grid1.coords t) = 1#1 ∧ ¬ k1_cond3 (grid1.coords t) = 1#1 ∧ k1_cond4 (grid1.coords t) = 1#1) :=
  (by decide +kernel : ∀ t : Fin grid1.N,
    (k1_cond1 (grid1.coords t) = 1#1 ∧ ¬ k1_cond2 (grid1.coords t) = 1#1 ∧ ¬ k1_cond3 (grid1.coords t) = 1#1 ∧ ¬ k1_cond4 (grid1.coords t) = 1#1)
    ∨ (¬ k1_cond1 (grid1.coords t) = 1#1 ∧ k1_cond2 (grid1.coords t) = 1#1 ∧ ¬ k1_cond3 (grid1.coords t) = 1#1 ∧ ¬ k1_cond4 (grid1.coords t) = 1#1)
    ∨ (¬ k1_cond1 (grid1.coords t) = 1#1 ∧ ¬ k1_cond2 (grid1.coords t) = 1#1 ∧ k1_cond3 (grid1.coords t) = 1#1 ∧ ¬ k1_cond4 (grid1.coords t) = 1#1)
    ∨ (¬ k1_cond1 (grid1.coords t) = 1#1 ∧ ¬ k1_cond2 (grid1.coords t) = 1#1 ∧ ¬ k1_cond3 (grid1.coords t) = 1#1 ∧ k1_cond4 (grid1.coords t) = 1#1))

/-- So the result's window is idle at no tile. -/
theorem build_live5 : ∀ t : Fin cfg1.N, cfg1.idle 5 (cfg1.grid.coords t) = false :=
  (by decide +kernel : ∀ t : Fin grid1.N, idle1 5 (grid1.coords t) = false)

end Cert.Kernel.Hand

end
-- ==== Proof.K.BuildRunDiag.lean ====
/-
  The build kernel's body at a tile on the diagonal: of the four conditionals only the first is taken; it loads the two
  degree columns whole and stores the scaled identity through the whole staging buffer.
-/
import proofs.«126346_j4002909520738_2_alg».proof.Proof.K.BuildFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the first conditional taken: the inputs' buffers stay as found, the result's buffer ends at the scaled identity of the two degree columns. -/
theorem sound_kernel1_diag (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : k1_cond1 i = 1#1) (h2 : ¬ k1_cond2 i = 1#1) (h3 : ¬ k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 i x1 x2)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1) build_zero2]

end Cert.Kernel.Hand

end
-- ==== Proof.K.BuildRunB.lean ====
/-
  The build kernel's body at a tile of the cell–drug block: of the four conditionals only the second is taken; it loads
  the association tile, the cell degree column and the drug degree row whole and stores the scaled tile through the whole
  staging buffer.
-/
import proofs.«126346_j4002909520738_2_alg».proof.Proof.K.BuildFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the second conditional taken: the inputs' buffers stay as found, the result's buffer ends at the association tile scaled by the cell column and the drug row. -/
theorem sound_kernel1_B (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : k1_cond2 i = 1#1) (h3 : ¬ k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay2 x0 x1 x4)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1024) build_zero2, View.ld_unit_zero (S := S1024x1) build_zero2, View.ld_unit_zero (S := S1x1024) build_zero2]

end Cert.Kernel.Hand

end
-- ==== Proof.K.BuildRunC.lean ====
/-
  The build kernel's body at a tile of the drug–cell block: of the four conditionals only the third is taken; it loads
  the association tile, the drug degree column and the cell degree row whole and stores the scaled transposed tile through
  the whole staging buffer.
-/
import proofs.«126346_j4002909520738_2_alg».proof.Proof.K.BuildFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the third conditional taken: the inputs' buffers stay as found, the result's buffer ends at the transposed association tile scaled by the drug column and the cell row. -/
theorem sound_kernel1_C (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : ¬ k1_cond2 i = 1#1) (h3 : k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 x0 x2 x3)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1024) build_zero2, View.ld_unit_zero (S := S1024x1) build_zero2, View.ld_unit_zero (S := S1x1024) build_zero2]

end Cert.Kernel.Hand

end
-- ==== Proof.K.BuildRunZero.lean ====
/-
  The build kernel's body at a tile off the diagonal and outside both association blocks: of the four conditionals
  only the last is taken, and the one store through the whole staging buffer leaves the zero tile there; the five
  input buffers are not touched.
-/
import proofs.«126346_j4002909520738_2_alg».proof.Proof.K.BuildFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the fourth conditional taken: the inputs' buffers stay as found, the result's buffer ends at the zero tile. -/
theorem sound_kernel1_zero (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : ¬ k1_cond2 i = 1#1) (h3 : ¬ k1_cond3 i = 1#1) (h4 : k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay4 (F := F))) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]

end Cert.Kernel.Hand

end
-- ==== Proof.K.BuildBody.lean ====
/-
  The build kernel's body meets launch 1's proof data at every tile. Each input window's current staging buffer holds
  its block whether or not the tile fetched it (an unfetched window's block index has not moved); the tile is in exactly
  one of four positions, and in each the body's run leaves the inputs as found and the result's buffer at that
  position's tile, which is what the proof data state.
-/
import proofs.«126346_j4002909520738_2_alg».proof.Proof.K.BuildRunDiag
import proofs.«126346_j4002909520738_2_alg».proof.Proof.K.BuildRunB
import proofs.«126346_j4002909520738_2_alg».proof.Proof.K.BuildRunC
import proofs.«126346_j4002909520738_2_alg».proof.Proof.K.BuildRunZero

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory contents the launch is entered from
variable (V : (c : Dev nD) → (b : Ref sig .tc) → Buf (Elt F) ((c : Thread nD τ).loc b))

/-! ## The input windows hold their blocks

For any proof data whose array is the entry contents and whose body leaves the block in place, an input window's current
staging buffer holds its block at every tile: fetched there, by the fetch; unfetched, the block index has not moved since
the tile before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any tile: the inputs' buffers hold their blocks; the tile is in exactly one of the four positions, whose
    run applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rcases build_cases t with ⟨h1, h2, h3, h4⟩ | ⟨h1, h2, h3, h4⟩ | ⟨h1, h2, h3, h4⟩ | ⟨h1, h2, h3, h4⟩
  · rw [show out1 V c t = k1_pay1 (grid1.coords t) (iblk1 V c 1 t) (iblk1 V c 2 t) from by unfold out1; rw [if_pos h1]]
    iintro ⟨HΦ, Ho, ⟨%d0, H0⟩, ⟨%d1, H1⟩, ⟨%d2, H2⟩, ⟨%d3, H3⟩, ⟨%d4, H4⟩, ⟨%d5, H5⟩⟩
    iapply (sound_kernel1_diag c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay2 (iblk1 V c 0 t) (iblk1 V c 1 t) (iblk1 V c 4 t) from by unfold out1; rw [if_neg h1, if_pos h2]]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay3 (iblk1 V c 0 t) (iblk1 V c 2 t) (iblk1 V c 3 t) from by unfold out1; rw [if_neg h1, if_neg h2, if_pos h3]]
    iintro ⟨HΦ, Ho, ⟨%d0, H0⟩, ⟨%d1, H1⟩, ⟨%d2, H2⟩, ⟨%d3, H3⟩, ⟨%d4, H4⟩, ⟨%d5, H5⟩⟩
    iapply (sound_kernel1_C c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay4 (F := F) from by unfold out1; rw [if_neg h1, if_neg h2, if_neg h3]]
    iintro ⟨HΦ, Ho, ⟨%d0, H0⟩, ⟨%d1, H1⟩, ⟨%d2, H2⟩, ⟨%d3, H3⟩, ⟨%d4, H4⟩, ⟨%d5, H5⟩⟩
    iapply (sound_kernel1_zero c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every tile: the result's window is idle at none. -/
theorem body_obligation1 (c : Dev nD) : BodyObligation (dat1 (F := F) V c) (defs₀ (F := F)) Variants.none () Set.univ := fun t => by
  rw [bigSep_W1, bigSep_W1]
  simp only [show idle1 5 (grid1.coords t) = false from build_live5 t]
  exact sound_body1 V c t

end Cert.Kernel.Hand

end
-- ==== Proof.KI.Data.lean ====
/-
  The proof data of the two kernel launches, stated explicitly over the kernels' arithmetic.

  Launch 0 walks the association matrix in six row tiles of 1024 rows. At tile `t` it writes the tile's row sums
  (a 1024 × 1 block of the first result) and keeps a running 1 × 2048 accumulator of column sums: cleared at the first
  tile, then each tile's column sums added; the accumulator's buffer is written back after the last tile only.
  Launch 1 walks the 8 × 8 tiles of the 8192 × 8192 result; a tile on the diagonal, in the cell–drug block, in the
  drug–cell block or elsewhere stores, respectively, the scaled identity, the scaled association tile, the scaled
  transposed tile, or zeros — exactly one of the four at every tile.
  Everything here is a definition over the contents `V` the launch finds in memory; the proofs that the kernels'
  bodies meet these data are in the modules that import this one.
-/
import proofs.«126346_j4002909520738_2_alg».proof.Proof.Gen.KernelIdeal.Launch
import proofs.«126346_j4002909520738_2_alg».proof.Proof.Gen.KernelIdeal.Skeleton
import proofs.«126346_j4002909520738_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the memory contents a launch is entered from: the parameter both launches' data are stated at
variable (V : (c : Dev nD) → (b : Ref sig .tc) → Buf (Elt F) ((c : Thread nD τ).loc b))

/-! ## Launch 0: row sums and the column-sum accumulator -/

/-- Window `w`'s block at tile `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column-sum accumulator after tile `n`: the first tile's column sums added to zeros, then every later tile's
    column sums added to what the tile before left. -/
def acc0 (c : Dev nD) : (n : ℕ) → n < cfg0.N → Vec F S1x2048 .f32
  | 0, hn => k0_pay3 (iblk0 V c 0 ⟨0, hn⟩) (k0_pay2 (F := F))
  | n + 1, hn => k0_pay3 (iblk0 V c 0 ⟨n + 1, hn⟩) (acc0 c n (Nat.lt_of_succ_lt hn))

theorem acc0_zero (c : Dev nD) (hn : 0 < cfg0.N) : acc0 V c 0 hn = k0_pay3 (iblk0 V c 0 ⟨0, hn⟩) (k0_pay2 (F := F)) := rfl
theorem acc0_succ (c : Dev nD) (n : ℕ) (hn : n + 1 < cfg0.N) :
    acc0 V c (n + 1) hn = k0_pay3 (iblk0 V c 0 ⟨n + 1, hn⟩) (acc0 V c n (Nat.lt_of_succ_lt hn)) := rfl

/-- Launch 0's proof data: the arrays as found; after tile `t` the input's buffer at its block, the row-sum buffer at
    the tile's row sums, the accumulator's buffer at `acc0`; the untouched rest of the core as invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]
theorem after0_2 (c : Dev nD) (t : Fin cfg0.N) : (dat0 V c).after 2 t = acc0 V c t.val t.isLt := by dsimp only [dat0]

/-! ## Launch 1: the result's tiles -/

/-- Window `w`'s block at tile `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What tile `t` of the result holds after the body: by the tile's position, the scaled identity (from the two degree
    columns), the scaled association tile (matrix tile, cell column, drug row), the scaled transposed tile (matrix tile,
    drug column, cell row), or zeros. -/
def out1 (c : Dev nD) (t : Fin cfg1.N) : Vec F S1024x1024 .f32 :=
  if k1_cond1 (grid1.coords t) = 1#1 then k1_pay1 (grid1.coords t) (iblk1 V c 1 t) (iblk1 V c 2 t)
  else if k1_cond2 (grid1.coords t) = 1#1 then k1_pay2 (iblk1 V c 0 t) (iblk1 V c 1 t) (iblk1 V c 4 t)
  else if k1_cond3 (grid1.coords t) = 1#1 then k1_pay3 (iblk1 V c 0 t) (iblk1 V c 2 t) (iblk1 V c 3 t)
  else k1_pay4 (F := F)

/-- Launch 1's proof data: the arrays as found; after tile `t` each input's buffer at its block and the result's buffer
    at `out1`; the untouched rest of the core as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

end Cert.KernelIdeal.Hand

end
-- ==== Proof.KI.Fold.lean ====
/-
  The memory contents at each boundary of the program: launch, after launch 0 (its two result arrays at what its
  write-backs leave, everything else as launched), after the host operations between the launches (the two degree
  vectors and their transposes computed from the sums), after launch 1 (the result array at what its write-backs leave).
  The argument array is written by no launch and no host operation, so it reads the same at every boundary.
-/
import proofs.«126346_j4002909520738_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch (launch 0's entry: no host operation precedes it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At launch 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations between the launches (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At launch 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation between the launches writes the argument array. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument array ends as launched: launch 1 reads it through an input window, the host operations do not write
    it, launch 0 reads it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_main_arg0 m ρ c
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

end Cert.KernelIdeal.Hand

end
-- ==== Proof.KI.Run.lean ====
/-
  The program's run. @main is launch 0, the host operations that turn the sums into degree factors, launch 1. Given
  the two launches' body obligations (each kernel body, at every grid point, leaves its buffers as the proof data say),
  every weakly fair execution terminates without a fault and ends with every buffer outside the launches' staging at
  the last boundary's contents: in particular the argument array as launched and the result array at what launch 1's
  write-backs leave.
-/
import proofs.«126346_j4002909520738_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two body obligations, at any entry contents. -/
abbrev Body0 : Prop := ∀ (V : (c : Dev nD) → (b : Ref sig .tc) → Buf (Elt F) ((c : Thread nD τ).loc b)) (c : Dev nD),
  BodyObligation (dat0 (F := F) V c) (defs₀ (F := F)) Variants.none () Set.univ
abbrev Body1 : Prop := ∀ (V : (c : Dev nD) → (b : Ref sig .tc) → Buf (Elt F) ((c : Thread nD τ).loc b)) (c : Dev nD),
  BodyObligation (dat1 (F := F) V c) (defs₀ (F := F)) Variants.none () Set.univ

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

variable (hb0 : Body0 (F := F)) (hb1 : Body1 (F := F))

set_option backward.isDefEq.respectTransparency.types false in
/-- Launch 0 as a segment: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- No host operation between the launches allocates a buffer. -/
theorem hostOps1_fresh : (hostOps1 : List (HloOp τ sig (Elt F))).Forall fun op => op.fresh = ∅ := by
  simp only [List.Forall]; repeat' constructor

/-- @main's three segments in order. -/
abbrev segs : List (Pipeline.Seg (pcfgs (F := F)) adm (pdats m ρ) () defs₀ 𝒱₀ L lv) :=
  [ .region (reg0 m ρ hb0),
    .host (hseg hostOps1 hostOps1_sub hostOps1_fresh (W1 m ρ)),
    .region (reg1 m ρ hb1) ]
/-- @main is the run of the segments. -/
theorem main_run (c : Dev nD) : main (F := F) c = Pipeline.Seg.run (segs m ρ hb0 hb1) := (main_chain c).trans (by chain_rfl)

include hb0 hb1 in
set_option backward.isDefEq.respectTransparency.types false in
/-- THE RUN: from any memory with zero counters every weakly fair execution of @main terminates, nothing faulting, and
    in every final state each buffer outside the staging holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

include hb0 hb1 in
/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_main m ρ hb0 hb1)

include hb0 hb1 in
/-- The run with the result array named: it ends at what launch 1's write-backs leave, the argument as launched. -/
theorem run_result : θ_run defs (onTc (τ := τ) (main (F := F))) ⟨m, fun _ => 0, ρ⟩ (fun r => ∀ c : Dev nD,
      r.2.mem ((c.tc : Thread nD τ).loc main_v9) = (dat1 (V2 m ρ) c).arrAt 5 cfg1.N
      ∧ r.2.mem ((c.tc : Thread nD τ).loc main_arg0) = m ((c.tc : Thread nD τ).loc main_arg0)) :=
  (θ_run defs _ _).mono (fun _ h c => ⟨(h c _ (mem_uc main_v9 (by decide))).trans (W3_arr m ρ c 5),
    (h c _ (mem_uc main_arg0 (by decide))).trans (W3_main_arg0 m ρ c)⟩) (run_main m ρ hb0 hb1)

end Cert.KernelIdeal.Hand

end
-- ==== Proof.KI.StatsRun.lean ====
/-
  The statistics kernel's body on any whole staging buffers, one triple per control case.

  The body reads the 1024 × 2048 input tile, stores the tile's row sums over the row-sum buffer, clears the 1 × 2048
  accumulator at the first tile only, then stores the accumulator plus the tile's column sums. Every load and store is of
  a whole buffer, so each buffer ends at the payload of its last store, and a load after a store reads that payload.
-/
import proofs.«126346_j4002909520738_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Offsets `![0, 0]` are the zero offsets. -/
theorem hz0 : (![0, 0] : Fin 2 → Nat) = fun _ => 0 := funext fun a => by fin_cases a <;> rfl

/-- The condition of the body's one conditional: "this is tile 0", from the grid coordinates. -/
abbrev cond0 (i : grid0.Coords) : Prop :=
  (Scalar.cmpi .ne (Scalar.extui (Scalar.cmpi .eq (BitVec.ofNat 32 (i 0).val) 0#32)) 0#32) = 1#1

/-- It holds at the first tile only: decided over the six tiles. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later tile: the accumulator's buffer, found at `xo`, ends at `xo` plus the tile's column sums; the row-sum buffer,
    found at anything, ends at the tile's row sums; the input's buffer is only read. -/
theorem sound_kernel0_B (c : Dev nD) (E : Set ℕ) (i : grid0.Coords)
    (arg1 : Memref sig .tc .vmem S1024x2048 .f32) (harg1 : arg1.IsWhole)
    (arg2 : Memref sig .tc .vmem S1024x1 .f32) (harg2 : arg2.IsWhole)
    (arg3 : Memref sig .tc .vmem S1x2048 .f32) (harg3 : arg3.IsWhole) (hc : ¬cond0 i)
    (x0 : Vec F S1024x2048 .f32) (xo : Vec F S1x2048 .f32) (K : PUnit → sProp 𝕄) :
    iprop(owns (c : Thread nD τ) arg1 fullShare x0 ∗ (∃ d, owns (c : Thread nD τ) arg2 fullShare d)
        ∗ owns (c : Thread nD τ) arg3 fullShare xo
        ∗ (iprop(owns (c : Thread nD τ) arg1 fullShare x0 ∗ owns (c : Thread nD τ) arg2 fullShare (k0_pay1 x0)
            ∗ owns (c : Thread nD τ) arg3 fullShare (k0_pay3 x0 xo)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz0 inb_S1024x1_S1024x1_0_0 y⟩),
      View.canon_unit_zero hz0]
    simp only [View.readAt_eq_ld, harg1.read_unread, View.ld_unit_zero (S := S1024x2048) hz0]
  iexists _; isplitr
  swap; · iexact H2
  ipureintro
  rw [View.read_writes_eq_canon _ _ _ (fun y => ⟨_, List.mem_singleton_self _, View.mem_set_unit_zero hz0 inb_S1x2048_S1x2048_0_0 y⟩),
    View.canon_unit_zero hz0]
  simp only [View.readAt_eq_ld, harg1.read_unread, harg3.read_unread, View.ld_unit_zero (S := S1024x2048) hz0,
    View.ld_unit_zero (S := S1x2048) hz0]

set_option maxHeartbeats 1000000 in
/-- The first tile: the accumulator's buffer, found at anything, is cleared, read back, and ends at zeros plus the tile's
    column sums; the row-sum buffer, found at anything, ends at the tile's row sums; the input's buffer is only read. -/
theorem sound_kernel0_A (c : Dev nD) (E : Set ℕ) (i : grid0.Coords)
    (arg1 : Memref sig .tc .vmem S1024x2048 .f32) (harg1 : arg1.IsWhole)
    (arg2 : Memref sig .tc .vmem S1024x1 .f32) (harg2 : arg2.IsWhole)
    (arg3 : Memref sig .tc .vmem S1x2048 .f32) (harg3 : arg3.IsWhole) (hc : cond0 i)
    (x0 : Vec F S1024x2048 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (k0_pay1 x0)
            ∗ owns (c : Thread nD τ) arg3 fullShare (k0_pay3 x0 (k0_pay2 (F := F)))) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  obtain rfl := harg1.eq_unread hf0
  sl_exec (disch := first | exact hc)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz0 inb_S1024x1_S1024x1_0_0 y⟩),
      View.canon_unit_zero hz0]
    simp only [View.readAt_eq_ld, harg1.read_unread, View.ld_unit_zero (S := S1024x2048) hz0]
  iexists _; isplitr
  swap; · iexact H2
  ipureintro
  sl_unfold_words
  rw [View.read_writes_eq_canon _ _ _ (fun y => ⟨_, List.mem_cons_self .., View.mem_set_unit_zero hz0 inb_S1x2048_S1x2048_0_0 y⟩),
    View.canon_cons_unit_zero (S := S1x2048) hz0, View.readCov_unit_zero (S := S1x2048) _ hz0]
  simp only [View.readAt_eq_ld, harg1.read_unread, View.ld_unit_zero (S := S1024x2048) hz0]

end Cert.KernelIdeal.Hand

end
-- ==== Proof.KI.StatsBody.lean ====
/-
  The statistics kernel's body obligation: at every tile, from what the launch's proof data say each window's staging
  buffer holds before the body, the body leaves what they say it holds after.

  The input's buffer holds the tile (fetched at every tile). The row-sum buffer is written back at every tile and the body
  overwrites it whole, so what it held does not matter. The accumulator's buffer is written back after the last tile only:
  at the first tile it is cleared by the body itself, and at a later tile it still holds what the body left one tile
  earlier, to which the tile's column sums are added — the recursion of `acc0`.
-/
import proofs.«126346_j4002909520738_2_alg».proof.Proof.KI.StatsRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the staging buffers hold before the body -/

/-- The input window's current staging buffer holds its tile at every point, for any proof data whose array is the
    entry contents and whose body leaves the tile in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- At a tile after the first, the accumulator's buffer holds what the body left one tile earlier: the buffer is written
    back after the last tile only, so not between the two; the window is live and uncut. -/
theorem before0_2_later (c : Dev nD) (t : Fin cfg0.N) (h0 : ¬t.val = 0) (d) :
    (dat0 V c).before 2 t d = acc0 V c (t.val - 1) (Nat.lt_of_le_of_lt (Nat.sub_le _ _) t.isLt) := by
  have hN : t.val < 6 := lt_of_lt_of_eq t.isLt (show cfg0.N = 6 from N_0)
  rw [Dat.before_out_kept _ 2 rfl t h0 (Bool.eq_false_iff.mpr fun h => by have := (flush0_2 _).mp h; dsimp only at this; omega)
    (fun _ => rfl) (fun _ _ => rfl)]
  dsimp only [dat0]

/-! ## The accumulator, by the tile's case -/

/-- After the first tile: zeros plus the tile's column sums. -/
theorem acc0_first (c : Dev nD) (t : Fin cfg0.N) (h0 : t.val = 0) :
    acc0 V c t.val t.isLt = k0_pay3 (iblk0 V c 0 t) (k0_pay2 (F := F)) := by
  obtain ⟨n, hn⟩ := t
  cases n with
  | zero => exact acc0_zero V c hn
  | succ n => exact absurd h0 (Nat.succ_ne_zero n)

/-- After a later tile: what the tile before left plus the tile's column sums. -/
theorem acc0_later (c : Dev nD) (t : Fin cfg0.N) (h0 : ¬t.val = 0) :
    acc0 V c t.val t.isLt
      = k0_pay3 (iblk0 V c 0 t) (acc0 V c (t.val - 1) (Nat.lt_of_le_of_lt (Nat.sub_le _ _) t.isLt)) := by
  obtain ⟨n, hn⟩ := t
  cases n with
  | zero => exact absurd rfl h0
  | succ n => exact acc0_succ V c n hn

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any tile: the input's buffer holds the tile; the tile's number says which case it is in, and at a later
    tile the accumulator's buffer holds what the tile before left; so that case's triple applies. The invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [acc0_first V c t h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_later V c t h0]
    simp only [before0_2_later V c t h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) _ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.BuildFacts.lean ====
/-
  Facts about the build kernel's grid that its body's proof stands on, each decided over the 64 tiles: exactly one of
  the four conditionals is taken at every tile, so the result's buffer is written at every tile.
-/
import proofs.«126346_j4002909520738_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a rank-2 block are zero on both axes. -/
theorem build_zero2 : (![0, 0] : Fin 2 → Nat) = fun _ => 0 := funext fun a => by fin_cases a <;> rfl

/-- At every tile exactly one of the four conditionals is taken: the diagonal, the cell–drug block, the drug–cell
    block, or the rest. -/
theorem build_cases : ∀ t : Fin cfg1.N,
    (k1_cond1 (grid1.coords t) = 1#1 ∧ ¬ k1_cond2 (grid1.coords t) = 1#1 ∧ ¬ k1_cond3 (grid1.coords t) = 1#1 ∧ ¬ k1_cond4 (grid1.coords t) = 1#1)
    ∨ (¬ k1_cond1 (grid1.coords t) = 1#1 ∧ k1_cond2 (grid1.coords t) = 1#1 ∧ ¬ k1_cond3 (grid1.coords t) = 1#1 ∧ ¬ k1_cond4 (grid1.coords t) = 1#1)
    ∨ (¬ k1_cond1 (grid1.coords t) = 1#1 ∧ ¬ k1_cond2 (grid1.coords t) = 1#1 ∧ k1_cond3 (grid1.coords t) = 1#1 ∧ ¬ k1_cond4 (grid1.coords t) = 1#1)
    ∨ (¬ k1_cond1 (grid1.coords t) = 1#1 ∧ ¬ k1_cond2 (grid1.coords t) = 1#1 ∧ ¬ k1_cond3 (grid1.coords t) = 1#1 ∧ k1_cond4 (grid1.coords t) = 1#1) :=
  (by decide +kernel : ∀ t : Fin grid1.N,
    (k1_cond1 (grid1.coords t) = 1#1 ∧ ¬ k1_cond2 (grid1.coords t) = 1#1 ∧ ¬ k1_cond3 (grid1.coords t) = 1#1 ∧ ¬ k1_cond4 (grid1.coords t) = 1#1)
    ∨ (¬ k1_cond1 (grid1.coords t) = 1#1 ∧ k1_cond2 (grid1.coords t) = 1#1 ∧ ¬ k1_cond3 (grid1.coords t) = 1#1 ∧ ¬ k1_cond4 (grid1.coords t) = 1#1)
    ∨ (¬ k1_cond1 (grid1.coords t) = 1#1 ∧ ¬ k1_cond2 (grid1.coords t) = 1#1 ∧ k1_cond3 (grid1.coords t) = 1#1 ∧ ¬ k1_cond4 (grid1.coords t) = 1#1)
    ∨ (¬ k1_cond1 (grid1.coords t) = 1#1 ∧ ¬ k1_cond2 (grid1.coords t) = 1#1 ∧ ¬ k1_cond3 (grid1.coords t) = 1#1 ∧ k1_cond4 (grid1.coords t) = 1#1))

/-- So the result's window is idle at no tile. -/
theorem build_live5 : ∀ t : Fin cfg1.N, cfg1.idle 5 (cfg1.grid.coords t) = false :=
  (by decide +kernel : ∀ t : Fin grid1.N, idle1 5 (grid1.coords t) = false)

end Cert.KernelIdeal.Hand

end
-- ==== Proof.KI.BuildRunDiag.lean ====
/-
  The build kernel's body at a tile on the diagonal: of the four conditionals only the first is taken; it loads the two
  degree columns whole and stores the scaled identity through the whole staging buffer.
-/
import proofs.«126346_j4002909520738_2_alg».proof.Proof.KI.BuildFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the first conditional taken: the inputs' buffers stay as found, the result's buffer ends at the scaled identity of the two degree columns. -/
theorem sound_kernel1_diag (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : k1_cond1 i = 1#1) (h2 : ¬ k1_cond2 i = 1#1) (h3 : ¬ k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 i x1 x2)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1) build_zero2]

end Cert.KernelIdeal.Hand

end
-- ==== Proof.KI.BuildRunB.lean ====
/-
  The build kernel's body at a tile of the cell–drug block: of the four conditionals only the second is taken; it loads
  the association tile, the cell degree column and the drug degree row whole and stores the scaled tile through the whole
  staging buffer.
-/
import proofs.«126346_j4002909520738_2_alg».proof.Proof.KI.BuildFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the second conditional taken: the inputs' buffers stay as found, the result's buffer ends at the association tile scaled by the cell column and the drug row. -/
theorem sound_kernel1_B (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : k1_cond2 i = 1#1) (h3 : ¬ k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay2 x0 x1 x4)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1024) build_zero2, View.ld_unit_zero (S := S1024x1) build_zero2, View.ld_unit_zero (S := S1x1024) build_zero2]

end Cert.KernelIdeal.Hand

end
-- ==== Proof.KI.BuildRunC.lean ====
/-
  The build kernel's body at a tile of the drug–cell block: of the four conditionals only the third is taken; it loads
  the association tile, the drug degree column and the cell degree row whole and stores the scaled transposed tile through
  the whole staging buffer.
-/
import proofs.«126346_j4002909520738_2_alg».proof.Proof.KI.BuildFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the third conditional taken: the inputs' buffers stay as found, the result's buffer ends at the transposed association tile scaled by the drug column and the cell row. -/
theorem sound_kernel1_C (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : ¬ k1_cond2 i = 1#1) (h3 : k1_cond3 i = 1#1) (h4 : ¬ k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 x0 x2 x3)) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]
  simp only [View.readAt_eq_ld, View.ld_unit_zero (S := S1024x1024) build_zero2, View.ld_unit_zero (S := S1024x1) build_zero2, View.ld_unit_zero (S := S1x1024) build_zero2]

end Cert.KernelIdeal.Hand

end
-- ==== Proof.KI.BuildRunZero.lean ====
/-
  The build kernel's body at a tile off the diagonal and outside both association blocks: of the four conditionals
  only the last is taken, and the one store through the whole staging buffer leaves the zero tile there; the five
  input buffers are not touched.
-/
import proofs.«126346_j4002909520738_2_alg».proof.Proof.KI.BuildFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Only the fourth conditional taken: the inputs' buffers stay as found, the result's buffer ends at the zero tile. -/
theorem sound_kernel1_zero (c : Dev nD) (E : Set ℕ) (i : grid1.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (h1 : ¬ k1_cond1 i = 1#1) (h2 : ¬ k1_cond2 i = 1#1) (h3 : ¬ k1_cond3 i = 1#1) (h4 : k1_cond4 i = 1#1)
    (x0 : Vec F S1024x1024 .f32) (x1 : Vec F S1024x1 .f32) (x2 : Vec F S1024x1 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay4 (F := F))) -∗ K ⟨⟩))
      ⊢ wp frame (wpE (defs₀ (F := F)) Variants.none c none) E (cc1__build_kernel i arg2 harg2 arg3 harg3 arg4 harg4 arg5 harg5 arg6 harg6 arg7 harg7) K := by
  simp only [cc1__build_kernel_eq_skeleton]; unfold cc1__build_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3 | exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero build_zero2 inb_S1024x1024_S1024x1024_0_0 y⟩),
    View.canon_unit_zero build_zero2]

end Cert.KernelIdeal.Hand

end
-- ==== Proof.KI.BuildBody.lean ====
/-
  The build kernel's body meets launch 1's proof data at every tile. Each input window's current staging buffer holds
  its block whether or not the tile fetched it (an unfetched window's block index has not moved); the tile is in exactly
  one of four positions, and in each the body's run leaves the inputs as found and the result's buffer at that
  position's tile, which is what the proof data state.
-/
import proofs.«126346_j4002909520738_2_alg».proof.Proof.KI.BuildRunDiag
import proofs.«126346_j4002909520738_2_alg».proof.Proof.KI.BuildRunB
import proofs.«126346_j4002909520738_2_alg».proof.Proof.KI.BuildRunC
import proofs.«126346_j4002909520738_2_alg».proof.Proof.KI.BuildRunZero

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory contents the launch is entered from
variable (V : (c : Dev nD) → (b : Ref sig .tc) → Buf (Elt F) ((c : Thread nD τ).loc b))

/-! ## The input windows hold their blocks

For any proof data whose array is the entry contents and whose body leaves the block in place, an input window's current
staging buffer holds its block at every tile: fetched there, by the fetch; unfetched, the block index has not moved since
the tile before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any tile: the inputs' buffers hold their blocks; the tile is in exactly one of the four positions, whose
    run applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rcases build_cases t with ⟨h1, h2, h3, h4⟩ | ⟨h1, h2, h3, h4⟩ | ⟨h1, h2, h3, h4⟩ | ⟨h1, h2, h3, h4⟩
  · rw [show out1 V c t = k1_pay1 (grid1.coords t) (iblk1 V c 1 t) (iblk1 V c 2 t) from by unfold out1; rw [if_pos h1]]
    iintro ⟨HΦ, Ho, ⟨%d0, H0⟩, ⟨%d1, H1⟩, ⟨%d2, H2⟩, ⟨%d3, H3⟩, ⟨%d4, H4⟩, ⟨%d5, H5⟩⟩
    iapply (sound_kernel1_diag c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay2 (iblk1 V c 0 t) (iblk1 V c 1 t) (iblk1 V c 4 t) from by unfold out1; rw [if_neg h1, if_pos h2]]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay3 (iblk1 V c 0 t) (iblk1 V c 2 t) (iblk1 V c 3 t) from by unfold out1; rw [if_neg h1, if_neg h2, if_pos h3]]
    iintro ⟨HΦ, Ho, ⟨%d0, H0⟩, ⟨%d1, H1⟩, ⟨%d2, H2⟩, ⟨%d3, H3⟩, ⟨%d4, H4⟩, ⟨%d5, H5⟩⟩
    iapply (sound_kernel1_C c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show out1 V c t = k1_pay4 (F := F) from by unfold out1; rw [if_neg h1, if_neg h2, if_neg h3]]
    iintro ⟨HΦ, Ho, ⟨%d0, H0⟩, ⟨%d1, H1⟩, ⟨%d2, H2⟩, ⟨%d3, H3⟩, ⟨%d4, H4⟩, ⟨%d5, H5⟩⟩
    iapply (sound_kernel1_zero c Set.univ (grid1.coords t) _ _ _ _ _ _ _ _ _ _ _ _ h1 h2 h3 h4
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every tile: the result's window is idle at none. -/
theorem body_obligation1 (c : Dev nD) : BodyObligation (dat1 (F := F) V c) (defs₀ (F := F)) Variants.none () Set.univ := fun t => by
  rw [bigSep_W1, bigSep_W1]
  simp only [show idle1 5 (grid1.coords t) = false from build_live5 t]
  exact sound_body1 V c t

end Cert.KernelIdeal.Hand

end
-- ==== Proof.Spec.lean ====
/-
  The function both programs compute, over the extended reals.

  From a cell-by-drug association matrix `x` (6144 cells, 2048 drugs) build the symmetric block matrix
  `A = [[I, x], [xᵀ, I]]` on 8192 = 6144 + 2048 nodes, the degrees' inverse square roots
  `d p = (Σ_q A p q)^(-1/2)` — for a cell `(1 + Σ_k x i k)^(-1/2)`, for a drug `(1 + Σ_i x i j)^(-1/2)` —,
  and the result `I + D A D`, that is `δ p q + d p · A p q · d q`, entry by entry.
-/
import Idealize.ShloMosaic.PureOps.Ideal
import Idealize.ShloMosaic.Lib.ValueIdx

noncomputable section

namespace Cert.Proof.Spec

open Idealize.ShloMosaic Idealize.ShloMosaic.ValueIdx

/-- The association matrix's shape and the result's. -/
abbrev SX : Shape := ⟨2, ![6144, 2048]⟩
abbrev SO : Shape := ⟨2, ![8192, 8192]⟩

/-- A cell's degree factor: `(1 + Σ_k x i k)^(-1/2)`. -/
def dCell (x : SX.Idx → EReal) (i : Fin 6144) : EReal :=
  Ideal.rsqrt ((1 : EReal) + ∑ k : Fin 2048, x (ix2 i k))

/-- A drug's degree factor: `(1 + Σ_i x i j)^(-1/2)`. -/
def dDrug (x : SX.Idx → EReal) (j : Fin 2048) : EReal :=
  Ideal.rsqrt ((1 : EReal) + ∑ i : Fin 6144, x (ix2 i j))

/-- A node's degree factor: nodes below 6144 are cells, the others drugs. -/
def deg (x : SX.Idx → EReal) (p : Fin 8192) : EReal :=
  if h : p.val < 6144 then dCell x ⟨p.val, h⟩ else dDrug x ⟨p.val - 6144, by omega⟩

/-- The block matrix `[[I, x], [xᵀ, I]]` at an entry. -/
def adj (x : SX.Idx → EReal) (p q : Fin 8192) : EReal :=
  if hp : p.val < 6144 then
    if hq : q.val < 6144 then (if p = q then 1 else 0)
    else x (ix2 ⟨p.val, hp⟩ ⟨q.val - 6144, by omega⟩)
  else
    if hq : q.val < 6144 then x (ix2 ⟨q.val, hq⟩ ⟨p.val - 6144, by omega⟩)
    else (if p = q then 1 else 0)

/-- The result at an entry: `δ p q + d p · A p q · d q`. -/
def entry (x : SX.Idx → EReal) (p q : Fin 8192) : EReal :=
  (if p = q then (1 : EReal) else 0) + deg x p * adj x p q * deg x q

/-- The result array. -/
def G (x : SX.Idx → EReal) : SO.Idx → EReal := fun j => entry x (j 0) (j 1)

theorem G_ix2 (x : SX.Idx → EReal) (p q : Fin 8192) : G x (ix2 p q) = entry x p q := rfl

end Cert.Proof.Spec

end
-- ==== Proof.KI.Degrees.lean ====
/-
  The four degree vectors as launch 1 finds them in memory: the cells' degree factors as a column (6144 × 1) and as a
  row (1 × 6144), the drugs' as a row (1 × 2048) and as a column (2048 × 1), each entry the specification's factor of
  its node.
-/
import proofs.«126346_j4002909520738_2_alg».proof.Proof.KI.Data
import proofs.«126346_j4002909520738_2_alg».proof.Proof.Spec

noncomputable section

namespace Cert.KernelIdeal.Hand

open Cert.KernelIdeal Idealize.ShloMosaic Cert.Proof

/-- The cells' degree factors as a column. -/
def cellCol (x : Spec.SX.Idx → EReal) : S6144x1.Idx → EReal := fun j => Spec.dCell x (j 0)
/-- The cells' degree factors as a row. -/
def cellRow (x : Spec.SX.Idx → EReal) : S1x6144.Idx → EReal := fun j => Spec.dCell x (j 1)
/-- The drugs' degree factors as a row. -/
def drugRow (x : Spec.SX.Idx → EReal) : S1x2048.Idx → EReal := fun j => Spec.dDrug x (j 1)
/-- The drugs' degree factors as a column. -/
def drugCol (x : Spec.SX.Idx → EReal) : S2048x1.Idx → EReal := fun j => Spec.dDrug x (j 0)

end Cert.KernelIdeal.Hand

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KI.RowSums.lean ====
/-
  Launch 0's first result: the row sums of the association matrix.

  Tile t of the launch reads rows 1024·t … 1024·t + 1023 of the matrix and leaves in its block of the result, a
  1024 × 1 column, each of these rows' sums over the 2048 columns. The six blocks tile the 6144 × 1 result, every tile
  writes its block back, so after the launch the result holds at row i the sum of row i of the matrix.
-/
import proofs.«126346_j4002909520738_2_alg».proof.Proof.KI.Fold
import proofs.«126346_j4002909520738_2_alg».proof.Proof.LibLaneSum
import proofs.«126346_j4002909520738_2_alg».proof.Proof.LibColumn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The row sums of a 6144 × 2048 matrix, as a 6144 × 1 column. -/
def rowSums (x : S6144x2048.Idx → EReal) : S6144x1.Idx → EReal := fun i => ∑ k : Fin 2048, x (ix2 (i 0) k)

theorem rowSums_ix2 (x : S6144x2048.Idx → EReal) (i : Fin 6144) (u : Fin 1) :
    rowSums x (ix2 i u) = ∑ k : Fin 2048, x (ix2 i k) := rfl

/-- A tile's row-sum column at row r: the sum of the tile's row r. -/
theorem rowPay_apply (v : Vec Ideal S1024x2048 .f32) (r : Fin 1024) (u : Fin 1) :
    k0_pay1 (F := Ideal) v (ix2 r u) = ∑ k : Fin 2048, v (ix2 r k) := by
  unfold k0_pay1
  refine (Cert.GraphConv.Column.shapeCast_a_a1_apply _ _ r u).trans ?_
  exact Cert.LaneSum.sum_last2 v _ _ _ _ r

/-- The block indices of launch 0's windows at tile t: the matrix's and the row sums' blocks move down with t. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The matrix's block at tile t, at (r, k), is the matrix at (1024·t + r, k). -/
theorem iblk0_apply (c : Dev nD) (t : Fin cfg0.N) (r : Fin 1024) (k : Fin 2048) (i : Fin 6144)
    (hi : i.val = 1024 * t.val + r.val) :
    (iblk0 V c 0 t : Vec Ideal S1024x2048 .f32) (ix2 r k) = (V c main_arg0 : S6144x2048.Idx → EReal) (ix2 i k) := by
  obtain ⟨e0, e1, -⟩ := idx_facts0 t
  unfold iblk0
  rw [View.read_apply]
  show (V c main_arg0 : S6144x2048.Idx → EReal) _ = _
  congr 1
  funext a
  apply Fin.ext
  match a with
  | ⟨0, _⟩ => show win0_0.index t 0 * 1024 + 1 * r.val = i.val; rw [e0, hi]; omega
  | ⟨1, _⟩ => show win0_0.index t 1 * 2048 + 1 * k.val = k.val; rw [e1]; omega

/-- What tile t writes back to the row sums' array is its block of the matrix's row sums. -/
theorem flushed1_eq (c : Dev nD) (t : Fin cfg0.N) :
    (dat0 V c).flushed 1 t = ((cfg0.win 1).blk t).view.read (Elt Ideal) (rowSums (V c main_arg0)) := by
  have hN : cfg0.N = 6 := N_0
  have ht : t.val < 6 := hN ▸ t.isLt
  obtain ⟨-, -, e0, e1, -⟩ := idx_facts0 t
  show (cfg0.win 1).cut (grid0.coords t) ((dat0 V c).after 1 t) = _
  rw [after0_1]
  funext y
  obtain ⟨r, u, rfl⟩ : ∃ (r : Fin 1024) (u : Fin 1), y = ix2 r u := ⟨y 0, y 1, eq_ix2 y⟩
  rw [View.read_apply]
  show k0_pay1 (F := Ideal) (iblk0 V c 0 t) (ix2 r u) = rowSums (V c main_arg0) (((cfg0.win 1).blk t).view.emb (ix2 r u))
  have hemb : ((cfg0.win 1).blk t).view.emb (ix2 r u) = (ix2 (⟨1024 * t.val + r.val, by omega⟩ : Fin 6144) (0 : Fin 1) : S6144x1.Idx) := by
    funext a
    apply Fin.ext
    match a with
    | ⟨0, _⟩ => show win0_1.index t 0 * 1024 + 1 * r.val = 1024 * t.val + r.val; rw [e0]; omega
    | ⟨1, _⟩ => show win0_1.index t 1 * 1 + 1 * u.val = 0; rw [e1]; omega
  rw [hemb, rowSums_ix2, rowPay_apply]
  exact Finset.sum_congr rfl fun k _ => iblk0_apply V c t r k _ rfl

/-- A row of the result lies in the block of the tile its number divided by 1024 names. -/
theorem cover1 (i : S6144x1.Idx) : ∃ t : Fin cfg0.N, (cfg0.win 1).flush t = true ∧ i ∈ ((cfg0.win 1).blk t).view.set := by
  have hN : cfg0.N = 6 := N_0
  have h0 : (i 0).val < 6144 := (i 0).isLt
  have h1 : (i 1).val < 1 := (i 1).isLt
  obtain ⟨t, ht⟩ : ∃ t : Fin cfg0.N, t.val = (i 0).val / 1024 := ⟨⟨(i 0).val / 1024, by omega⟩, rfl⟩
  refine ⟨t, flush0_1 t, ?_⟩
  obtain ⟨-, -, e0, e1, -⟩ := idx_facts0 t
  show i ∈ ((View.whole main_v0_0).slice (win0_1.rect t)).set
  rw [View.set_slice_whole, Rect.mem_set_unit]
  intro a
  match a with
  | ⟨0, _⟩ =>
    show win0_1.index t 0 * 1024 ≤ (i 0).val ∧ (i 0).val < win0_1.index t 0 * 1024 + 1024
    rw [e0, ht]; omega
  | ⟨1, _⟩ =>
    show win0_1.index t 1 * 1 ≤ (i 1).val ∧ (i 1).val < win0_1.index t 1 * 1 + 1
    rw [e1]; omega

/-- After launch 0 the first result holds the matrix's row sums. -/
theorem rowSums_final (c : Dev nD) : (dat0 V c).arrAt 1 cfg0.N = rowSums (V c main_arg0) :=
  (dat0 V c).arrAt_eq_of_cover 1 (rowSums (V c main_arg0)) (fun t _ => flushed1_eq V c t) cover1

end Cert.KernelIdeal.Hand

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.KI.ColSums.lean ====
/-
  Launch 0's second result: the column sums of the association matrix.

  The launch keeps one 1 × 2048 accumulator across its six tiles: cleared at the first tile, then at every tile the
  tile's column sums (over its 1024 rows) are added to it. Only the last tile writes the accumulator back, and its one
  block is the whole 1 × 2048 result. So after the launch the result holds at column j the sum, over the six tiles, of
  the tiles' column sums: the sum of column j over all 6144 rows.
-/
import proofs.«126346_j4002909520738_2_alg».proof.Proof.KI.RowSums
import proofs.«126346_j4002909520738_2_alg».proof.Proof.LibBlockSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The column sums of a 6144 × 2048 matrix, as a 1 × 2048 row. -/
def colSums (x : S6144x2048.Idx → EReal) : S1x2048.Idx → EReal := fun i => ∑ r : Fin 6144, x (ix2 r (i 1))

theorem colSums_ix2 (x : S6144x2048.Idx → EReal) (u : Fin 1) (j : Fin 2048) :
    colSums x (ix2 u j) = ∑ r : Fin 6144, x (ix2 r j) := rfl

/-- A vector of b entries cast to a 1 × b row reads, at (u, j), the vector at j: both have row-major position j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-- The cleared accumulator is zero everywhere. -/
theorem zeroRow_apply (i : S1x2048.Idx) : k0_pay2 (F := Ideal) i = 0 := by
  unfold k0_pay2
  exact Ideal.ofBits_zero_f32

/-- A tile's step on the accumulator: at column j, what it held plus the tile's column sum. -/
theorem accPay_apply (v0 : Vec Ideal S1024x2048 .f32) (v7 : Vec Ideal S1x2048 .f32) (u : Fin 1) (j : Fin 2048) :
    k0_pay3 (F := Ideal) v0 v7 (ix2 u j) = v7 (ix2 u j) + ∑ r : Fin 1024, v0 (ix2 r j) := by
  unfold k0_pay3
  refine (addf_apply _ _ _).trans ?_
  refine congrArg₂ (· + ·) ?_ ?_
  · exact congrFun (shapeCast_self v7 _) _
  · refine (shapeCast_b_1b_apply _ _ u j).trans ?_
    exact Cert.LaneSum.sum_first2 v0 _ _ _ _ j

/-- The matrix at a row given by its number (zero past the last row: never read). -/
def rowAt (x : S6144x2048.Idx → EReal) (n : ℕ) (j : Fin 2048) : EReal :=
  if h : n < 6144 then x (ix2 (⟨n, h⟩ : Fin 6144) j) else 0

theorem rowAt_of_lt (x : S6144x2048.Idx → EReal) (n : ℕ) (j : Fin 2048) (h : n < 6144) :
    rowAt x n j = x (ix2 (⟨n, h⟩ : Fin 6144) j) := dif_pos h

/-- The sum of column j over the 1024 rows of tile s. -/
def tileColSum (x : S6144x2048.Idx → EReal) (s : ℕ) (j : Fin 2048) : EReal :=
  ∑ r : Fin 1024, rowAt x (1024 * s + r.val) j

/-- The column sum of a block that holds rows 1024·t … of the matrix is the column's sum over those rows. -/
theorem tile_colSum (v : Vec Ideal S1024x2048 .f32) (x : S6144x2048.Idx → EReal) (t : ℕ) (ht : t < 6)
    (hv : ∀ (r : Fin 1024) (k : Fin 2048) (i : Fin 6144), i.val = 1024 * t + r.val → v (ix2 r k) = x (ix2 i k))
    (j : Fin 2048) : ∑ r : Fin 1024, v (ix2 r j) = tileColSum x t j := by
  refine Finset.sum_congr rfl fun r _ => ?_
  have hr : r.val < 1024 := r.isLt
  have h : 1024 * t + r.val < 6144 := by omega
  rw [rowAt_of_lt _ _ _ h]
  exact hv r j ⟨_, h⟩ rfl

/-- After tile n the accumulator holds, at column j, the column's sums over tiles 0 … n added up. -/
theorem acc0_apply (c : Dev nD) : ∀ (n : ℕ) (hn : n < cfg0.N) (u : Fin 1) (j : Fin 2048),
    acc0 V c n hn (ix2 u j) = ∑ s ∈ Finset.range (n + 1), tileColSum (V c main_arg0) s j
  | 0, hn, u, j => by
    refine (congrFun (acc0_zero V c hn) (ix2 u j)).trans ?_
    refine (accPay_apply _ _ u j).trans ?_
    rw [zeroRow_apply, zero_add, Finset.sum_range_one]
    exact tile_colSum _ (V c main_arg0) 0 (by omega) (fun r k i hi => iblk0_apply V c ⟨0, hn⟩ r k i hi) j
  | n + 1, hn, u, j => by
    refine (congrFun (acc0_succ V c n hn) (ix2 u j)).trans ?_
    refine (accPay_apply _ _ u j).trans ?_
    rw [acc0_apply c n (Nat.lt_of_succ_lt hn) u j, Finset.sum_range_succ _ (n + 1)]
    have hN : cfg0.N = 6 := N_0
    exact congrArg _ (tile_colSum _ (V c main_arg0) (n + 1) (by omega)
      (fun r k i hi => iblk0_apply V c ⟨n + 1, hn⟩ r k i hi) j)

/-- 6144 rows are six tiles of 1024. -/
theorem sum_blocks_6144 {M : Type*} [AddCommMonoid M] (f : Fin 6144 → M) :
    ∑ i : Fin 6144, f i = ∑ t : Fin 6, ∑ r : Fin 1024, f ⟨t.val * 1024 + r.val, by
      have := t.isLt; have := r.isLt; omega⟩ :=
  Cert.BlockSums.sum_blocks 6 1024 f

/-- The six tiles' column sums add up to the column's sum over all rows. -/
theorem sum_tiles (x : S6144x2048.Idx → EReal) (j : Fin 2048) :
    ∑ s ∈ Finset.range 6, tileColSum x s j = ∑ i : Fin 6144, x (ix2 i j) := by
  rw [Finset.sum_range, sum_blocks_6144 (fun i : Fin 6144 => x (ix2 i j))]
  refine Finset.sum_congr rfl fun t _ => Finset.sum_congr rfl fun r _ => ?_
  have ht : t.val < 6 := t.isLt
  have hr : r.val < 1024 := r.isLt
  have h : 1024 * t.val + r.val < 6144 := by omega
  rw [rowAt_of_lt _ _ _ h]
  exact congrArg (fun i : Fin 6144 => x (ix2 i j)) (Fin.ext (by show 1024 * t.val + r.val = t.val * 1024 + r.val; omega))

/-- The one write-back, after the last tile, writes the matrix's column sums. -/
theorem flushed2_eq (c : Dev nD) (t : Fin cfg0.N) (hf : (cfg0.win 2).flush t = true) :
    (dat0 V c).flushed 2 t = ((cfg0.win 2).blk t).view.read (Elt Ideal) (colSums (V c main_arg0)) := by
  have hN : cfg0.N = 6 := N_0
  have h5 : t.val = 5 := by have := (flush0_2 t).mp hf; have := t.isLt; omega
  obtain ⟨-, -, -, -, e0, e1⟩ := idx_facts0 t
  show (cfg0.win 2).cut (grid0.coords t) ((dat0 V c).after 2 t) = _
  rw [after0_2]
  funext y
  obtain ⟨u, j, rfl⟩ : ∃ (u : Fin 1) (j : Fin 2048), y = ix2 u j := ⟨y 0, y 1, eq_ix2 y⟩
  rw [View.read_apply]
  show acc0 V c t.val t.isLt (ix2 u j) = colSums (V c main_arg0) (((cfg0.win 2).blk t).view.emb (ix2 u j))
  have hemb : ((cfg0.win 2).blk t).view.emb (ix2 u j) = (ix2 (0 : Fin 1) j : S1x2048.Idx) := by
    funext a
    apply Fin.ext
    match a with
    | ⟨0, _⟩ => show win0_2.index t 0 * 1 + 1 * u.val = 0; rw [e0]; omega
    | ⟨1, _⟩ => show win0_2.index t 1 * 2048 + 1 * j.val = j.val; rw [e1]; omega
  rw [hemb, colSums_ix2, acc0_apply V c t.val t.isLt u j, h5]
  exact sum_tiles _ j

/-- The last tile's block is the whole result. -/
theorem cover2 (i : S1x2048.Idx) : ∃ t : Fin cfg0.N, (cfg0.win 2).flush t = true ∧ i ∈ ((cfg0.win 2).blk t).view.set := by
  have h0 : (i 0).val < 1 := (i 0).isLt
  have h1 : (i 1).val < 2048 := (i 1).isLt
  refine ⟨t0_5, (flush0_2 t0_5).mpr rfl, ?_⟩
  obtain ⟨-, -, -, -, e0, e1⟩ := idx_facts0 t0_5
  show i ∈ ((View.whole main_v0_1).slice (win0_2.rect t0_5)).set
  rw [View.set_slice_whole, Rect.mem_set_unit]
  intro a
  match a with
  | ⟨0, _⟩ =>
    show win0_2.index t0_5 0 * 1 ≤ (i 0).val ∧ (i 0).val < win0_2.index t0_5 0 * 1 + 1
    rw [e0]; omega
  | ⟨1, _⟩ =>
    show win0_2.index t0_5 1 * 2048 ≤ (i 1).val ∧ (i 1).val < win0_2.index t0_5 1 * 2048 + 2048
    rw [e1]; omega

/-- After launch 0 the second result holds the matrix's column sums. -/
theorem colSums_final (c : Dev nD) : (dat0 V c).arrAt 2 cfg0.N = colSums (V c main_arg0) :=
  (dat0 V c).arrAt_eq_of_cover 2 (colSums (V c main_arg0)) (flushed2_eq V c) cover2

end Cert.KernelIdeal.Hand

end
-- ==== Proof.KI.HostDegrees.lean ====
/-
  The host operations between the two launches: from the row sums (a 6144 × 1 column) and the column sums (a 1 × 2048
  row) they compute the degree factors rsqrt(1 + sum), entry by entry, and each vector's transpose. Read at an entry:
  the constant one broadcast to the sums' shape reads one everywhere, the sum and the reciprocal square root act entry
  by entry, and the transpose of a column (a row) reads the entry with the two coordinates exchanged.
-/
import proofs.«126346_j4002909520738_2_alg».proof.Proof.KI.Fold
import Idealize.ShloMosaic.Lib.IdealHost
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Idealize.ShloMosaic.StableHlo

variable (m : (ℓ : Loc nD τ sig) → Buf (Elt Ideal) ℓ) (ρ : Dev nD → PrngReg)

/-- One added to every entry of an array of sums, then the reciprocal square root of every entry, as the host
    computes it: the constant one, broadcast to the array's shape, added, and the reciprocal square root taken. -/
def hostDeg (s : Shape) (bc : S_.BroadcastsInDim s (![] : Fin 0 → Fin s.rank)) (v : s.Idx → EReal) : s.Idx → EReal :=
  Host.rsqrt (F := Ideal) (φ := .f32)
    (addf (F := Ideal) (φ := .f32) (broadcastInDim s ![] bc (constant (F := Ideal) S_ .f32 0x3F800000#32)) v)

/-- At an entry: the reciprocal square root of one plus the sum there. -/
theorem hostDeg_apply (s : Shape) (bc : S_.BroadcastsInDim s (![] : Fin 0 → Fin s.rank)) (v : s.Idx → EReal) (i : s.Idx) :
    hostDeg s bc v i = Ideal.rsqrt (1 + v i) := by
  unfold hostDeg
  show Ideal.rsqrt (broadcastInDim s ![] bc (constant (F := Ideal) S_ .f32 0x3F800000#32) i + v i) = _
  rw [broadcastInDim_scalar_apply, constant_apply, Ideal.ofBits_one_f32]

/-- The transpose of a column reads, at (u, i), the column at (i, u). -/
theorem transpose_col_apply {α : Type} {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply [1, 0] x h (ix2 u i) (ix2 i u) (fun b => by match b with | ⟨0, _⟩ => rfl | ⟨1, _⟩ => rfl)

/-- The transpose of a row reads, at (j, u), the row at (u, j). -/
theorem transpose_row_apply {α : Type} {b : ℕ} (x : (⟨2, ![1, b]⟩ : Shape).Idx → α)
    (h : (⟨2, ![1, b]⟩ : Shape).Transposes [1, 0] ⟨2, ![b, 1]⟩) (j : Fin b) (u : Fin 1) :
    transpose ⟨2, ![b, 1]⟩ [1, 0] x h (ix2 j u) = x (ix2 u j) :=
  transpose_apply [1, 0] x h (ix2 j u) (ix2 u j) (fun b => by match b with | ⟨0, _⟩ => rfl | ⟨1, _⟩ => rfl)

/-- The cells' degree column as the host operations leave it: from the row sums launch 0 left. -/
theorem V2_main_v3 (c : Dev nD) :
    V2 m ρ c main_v3 = hostDeg S6144x1 bcast_S_S6144x1 (W1 m ρ c (Proc.devRef .tc main_v0_0)) := by
  show StableHlo.after hostOps1 (W1 m ρ c) (Proc.devRef .tc main_v3) = _
  after_results
  rfl

/-- The cells' degree row: the transpose of the column. -/
theorem V2_main_v4 (c : Dev nD) :
    V2 m ρ c main_v4 = transpose S1x6144 [1, 0] (hostDeg S6144x1 bcast_S_S6144x1 (W1 m ρ c (Proc.devRef .tc main_v0_0)))
      transposes_S6144x1_S1x6144_1_0 := by
  show StableHlo.after hostOps1 (W1 m ρ c) (Proc.devRef .tc main_v4) = _
  after_results
  rfl

/-- The drugs' degree row as the host operations leave it: from the column sums launch 0 left. -/
theorem V2_main_v7 (c : Dev nD) :
    V2 m ρ c main_v7 = hostDeg S1x2048 bcast_S_S1x2048 (W1 m ρ c (Proc.devRef .tc main_v0_1)) := by
  show StableHlo.after hostOps1 (W1 m ρ c) (Proc.devRef .tc main_v7) = _
  after_results
  rfl

/-- The drugs' degree column: the transpose of the row. -/
theorem V2_main_v8 (c : Dev nD) :
    V2 m ρ c main_v8 = transpose S2048x1 [1, 0] (hostDeg S1x2048 bcast_S_S1x2048 (W1 m ρ c (Proc.devRef .tc main_v0_1)))
      transposes_S1x2048_S2048x1_1_0 := by
  show StableHlo.after hostOps1 (W1 m ρ c) (Proc.devRef .tc main_v8) = _
  after_results
  rfl

end Cert.KernelIdeal.Hand

end
-- ==== Proof.KI.DegreesValue.lean ====
/-
  What memory holds when launch 1 is entered: the association matrix as launched, and the four degree vectors.

  Launch 0 leaves the matrix's row sums in its first result and the column sums in its second; the host operations
  turn each sum s into rsqrt(1 + s) and transpose the two vectors. So the cells' column and row hold at cell i the
  factor rsqrt(1 + Σ_k x i k), and the drugs' row and column hold at drug j the factor rsqrt(1 + Σ_i x i j): the
  specification's degree factors.
-/
import proofs.«126346_j4002909520738_2_alg».proof.Proof.KI.Fold
import proofs.«126346_j4002909520738_2_alg».proof.Proof.KI.Degrees
import proofs.«126346_j4002909520738_2_alg».proof.Proof.KI.RowSums
import proofs.«126346_j4002909520738_2_alg».proof.Proof.KI.ColSums
import proofs.«126346_j4002909520738_2_alg».proof.Proof.KI.HostDegrees

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Cert.Proof

variable (m : (ℓ : Loc nD τ sig) → Buf (Elt Ideal) ℓ) (ρ : Dev nD → PrngReg)

/-- After launch 0 its first result holds the launched matrix's row sums. -/
theorem W1_rowSums (c : Dev nD) :
    W1 m ρ c (Proc.devRef .tc main_v0_0) = rowSums (m ((c : Thread nD τ).loc main_arg0)) :=
  (W1_arr m ρ c 1).trans (rowSums_final (V0 m ρ) c)

/-- After launch 0 its second result holds the launched matrix's column sums. -/
theorem W1_colSums (c : Dev nD) :
    W1 m ρ c (Proc.devRef .tc main_v0_1) = colSums (m ((c : Thread nD τ).loc main_arg0)) :=
  (W1_arr m ρ c 2).trans (colSums_final (V0 m ρ) c)

/-- The matrix is as launched when launch 1 is entered: launch 0 only reads it and no host operation writes it. -/
theorem V2_main_arg0 (c : Dev nD) : V2 m ρ c main_arg0 = m ((c : Thread nD τ).loc main_arg0) :=
  (W2_main_arg0 m ρ c).trans
    ((W1_arr m ρ c 0).trans (((dat0 (V0 m ρ) c).arrAt_in 0 rfl _).trans (A_eq0 (V0 m ρ) c 0)))

/-- Launch 1 is entered from the launched matrix and the specification's degree factors, laid out as the cells'
    column, the drugs' column, the cells' row and the drugs' row. -/
theorem degrees_value (c : Dev nD) :
    V2 m ρ c main_arg0 = m ((c : Thread nD τ).loc main_arg0)
    ∧ V2 m ρ c main_v3 = cellCol (m ((c : Thread nD τ).loc main_arg0))
    ∧ V2 m ρ c main_v8 = drugCol (m ((c : Thread nD τ).loc main_arg0))
    ∧ V2 m ρ c main_v4 = cellRow (m ((c : Thread nD τ).loc main_arg0))
    ∧ V2 m ρ c main_v7 = drugRow (m ((c : Thread nD τ).loc main_arg0)) := by
  refine ⟨V2_main_arg0 m ρ c, ?_, ?_, ?_, ?_⟩
  · funext i
    obtain ⟨p, u, rfl⟩ : ∃ (p : Fin 6144) (u : Fin 1), i = ix2 p u := ⟨i 0, i 1, eq_ix2 i⟩
    rw [V2_main_v3, hostDeg_apply, W1_rowSums]
    rfl
  · funext i
    obtain ⟨j, u, rfl⟩ : ∃ (j : Fin 2048) (u : Fin 1), i = ix2 j u := ⟨i 0, i 1, eq_ix2 i⟩
    rw [V2_main_v8, transpose_row_apply, hostDeg_apply, W1_colSums]
    rfl
  · funext i
    obtain ⟨u, p, rfl⟩ : ∃ (u : Fin 1) (p : Fin 6144), i = ix2 u p := ⟨i 0, i 1, eq_ix2 i⟩
    rw [V2_main_v4, transpose_col_apply, hostDeg_apply, W1_rowSums]
    rfl
  · funext i
    obtain ⟨u, j, rfl⟩ : ∃ (u : Fin 1) (j : Fin 2048), i = ix2 u j := ⟨i 0, i 1, eq_ix2 i⟩
    rw [V2_main_v7, hostDeg_apply, W1_colSums]
    rfl

end Cert.KernelIdeal.Hand

end
-- ==== Proof.KI.TileIndex.lean ====
/-
  The second launch's grid, decided once over its 64 points.

  Point `t` of the 8 × 8 grid is tile (t / 8, t % 8) of the 8192 × 8192 result. Here: the result's block index at a
  point; which of the kernel's four cases a point falls in (on the diagonal; a cell row block against a drug column
  block; a drug row block against a cell column block; the rest); and where each input window sits at a point — the
  cells' column at row block min (t / 8) 5, the drugs' column at row block t / 8 − 6, the cells' row at column block
  min (t % 8) 5, the drugs' row at column block t % 8 − 6 (truncated subtraction), and the association matrix's tile
  at (t / 8, t % 8 − 6) in the cell–drug case and at (t % 8, t / 8 − 6) in the drug–cell case.
-/
import proofs.«126346_j4002909520738_2_alg».proof.Proof.KI.Data
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The result's block at point `t` is tile (t / 8, t % 8). -/
theorem tile_index : ∀ t : Fin cfg1.N, win1_5.index t (0 : Fin 2) = t.val / 8 ∧ win1_5.index t (1 : Fin 2) = t.val % 8 :=
  (by decide +kernel : ∀ t : Fin grid1.N, win1_5.index t (0 : Fin 2) = t.val / 8 ∧ win1_5.index t (1 : Fin 2) = t.val % 8)

/-- The first case is the diagonal. -/
theorem cond1_iff : ∀ t : Fin cfg1.N, k1_cond1 (grid1.coords t) = 1#1 ↔ t.val / 8 = t.val % 8 :=
  (by decide +kernel : ∀ t : Fin grid1.N, k1_cond1 (grid1.coords t) = 1#1 ↔ t.val / 8 = t.val % 8)

/-- The second case: a cell row block against a drug column block. -/
theorem cond2_iff : ∀ t : Fin cfg1.N, k1_cond2 (grid1.coords t) = 1#1 ↔ (t.val / 8 < 6 ∧ 6 ≤ t.val % 8) :=
  (by decide +kernel : ∀ t : Fin grid1.N, k1_cond2 (grid1.coords t) = 1#1 ↔ (t.val / 8 < 6 ∧ 6 ≤ t.val % 8))

/-- The third case: a drug row block against a cell column block. -/
theorem cond3_iff : ∀ t : Fin cfg1.N, k1_cond3 (grid1.coords t) = 1#1 ↔ (6 ≤ t.val / 8 ∧ t.val % 8 < 6) :=
  (by decide +kernel : ∀ t : Fin grid1.N, k1_cond3 (grid1.coords t) = 1#1 ↔ (6 ≤ t.val / 8 ∧ t.val % 8 < 6))

/-- The diagonal case's own test "the row block is a cell block". -/
theorem rowCell_iff : ∀ t : Fin cfg1.N, Scalar.cmpi .slt (BitVec.ofNat 32 ((grid1.coords t) 0).val) 6#32 = 1#1 ↔ t.val / 8 < 6 :=
  (by decide +kernel : ∀ t : Fin grid1.N, Scalar.cmpi .slt (BitVec.ofNat 32 ((grid1.coords t) 0).val) 6#32 = 1#1 ↔ t.val / 8 < 6)

/-- Where the four degree windows sit at point `t`. -/
theorem degree_index : ∀ t : Fin cfg1.N,
    win1_1.index t (0 : Fin 2) = min (t.val / 8) 5 ∧ win1_1.index t (1 : Fin 2) = 0
    ∧ win1_2.index t (0 : Fin 2) = t.val / 8 - 6 ∧ win1_2.index t (1 : Fin 2) = 0
    ∧ win1_3.index t (0 : Fin 2) = 0 ∧ win1_3.index t (1 : Fin 2) = min (t.val % 8) 5
    ∧ win1_4.index t (0 : Fin 2) = 0 ∧ win1_4.index t (1 : Fin 2) = t.val % 8 - 6 :=
  (by decide +kernel : ∀ t : Fin grid1.N,
    win1_1.index t (0 : Fin 2) = min (t.val / 8) 5 ∧ win1_1.index t (1 : Fin 2) = 0
    ∧ win1_2.index t (0 : Fin 2) = t.val / 8 - 6 ∧ win1_2.index t (1 : Fin 2) = 0
    ∧ win1_3.index t (0 : Fin 2) = 0 ∧ win1_3.index t (1 : Fin 2) = min (t.val % 8) 5
    ∧ win1_4.index t (0 : Fin 2) = 0 ∧ win1_4.index t (1 : Fin 2) = t.val % 8 - 6)

/-- Where the association matrix's window sits in the two cases that load it. -/
theorem matrix_index : ∀ t : Fin cfg1.N,
    ((t.val / 8 < 6 ∧ 6 ≤ t.val % 8) → win1_0.index t (0 : Fin 2) = t.val / 8 ∧ win1_0.index t (1 : Fin 2) = t.val % 8 - 6)
    ∧ ((6 ≤ t.val / 8 ∧ t.val % 8 < 6) → win1_0.index t (0 : Fin 2) = t.val % 8 ∧ win1_0.index t (1 : Fin 2) = t.val / 8 - 6) :=
  (by decide +kernel : ∀ t : Fin grid1.N,
    ((t.val / 8 < 6 ∧ 6 ≤ t.val % 8) → win1_0.index t (0 : Fin 2) = t.val / 8 ∧ win1_0.index t (1 : Fin 2) = t.val % 8 - 6)
    ∧ ((6 ≤ t.val / 8 ∧ t.val % 8 < 6) → win1_0.index t (0 : Fin 2) = t.val % 8 ∧ win1_0.index t (1 : Fin 2) = t.val / 8 - 6))

end Cert.KernelIdeal.Hand

end
-- ==== Proof.KI.TilePay.lean ====
/-
  The four tiles the second launch can store, read at an entry (r, s) of the 1024 × 1024 tile, over the extended
  reals and over arbitrary input blocks.

  On the diagonal: 1 + d r · d r where r = s and 0 elsewhere, with d the cells' degree column if the row block is a
  cell block and the drugs' otherwise. In the cell–drug block: column r · tile (r, s) · row s. In the drug–cell block
  the same with the tile transposed: column r · tile (s, r) · row s. Elsewhere: 0.
-/
import proofs.«126346_j4002909520738_2_alg».proof.Proof.KI.Data
import Idealize.ShloMosaic.Lib.ValueIdx
import Idealize.ShloMosaic.Lib.ValueLayout
import Idealize.ShloMosaic.Lib.Pipeline.Value
import Idealize.ShloMosaic.Lib.Affine
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- A 1024 × 1 column broadcast along the rows reads, at (r, s), the column at r. -/
theorem column_broadcast_apply (v : FVec Ideal S1024x1 .f32) (h : S1024x1.Broadcasts S1024x1024) (r s : Fin 1024) :
    broadcastTo S1024x1024 v h (ix2 r s) = v (ix2 r (0 : Fin 1)) :=
  broadcastTo_apply v h (ix2 r s) (ix2 r (0 : Fin 1)) fun a => match a with
    | ⟨0, _⟩ => rfl
    | ⟨1, _⟩ => rfl

/-- Two numbers below 1024 are the same 32-bit word only if they are the same number. -/
theorem word_eq_iff (r s : Fin 1024) : BitVec.ofNat 32 r.val = BitVec.ofNat 32 s.val ↔ r = s := by
  constructor
  · intro h
    have h' := congrArg BitVec.toNat h
    simp only [BitVec.toNat_ofNat] at h'
    have hr := r.isLt
    have hs := s.isLt
    apply Fin.ext
    omega
  · intro h; rw [h]

/-- The tile's row number equals its column number, as words, exactly on the tile's diagonal. -/
theorem diag_bit_iff (h0 : S1024x1024.Iotas .tc 32 [0]) (h1 : S1024x1024.Iotas .tc 32 [1]) (r s : Fin 1024) :
    cmpi .eq (iota .tc S1024x1024 32 [0] h0) (iota .tc S1024x1024 32 [1] h1) (ix2 r s) = 1#1 ↔ r = s := by
  show IntOp.cmpi .eq (iota .tc S1024x1024 32 [0] h0 (ix2 r s)) (iota .tc S1024x1024 32 [1] h1 (ix2 r s)) = 1#1 ↔ r = s
  rw [iota_single_apply, iota_single_apply, IntOp.cmpi_eq]
  exact word_eq_iff r s

/-- THE DIAGONAL TILE at (r, s): 1 + d r · d r on the diagonal, 0 off it; d is the first column if the row block is a
    cell block (row-block coordinate below 6) and the second otherwise. -/
theorem pay1_apply (i : grid1.Coords) (v19 v21 : FVec Ideal S1024x1 .f32) (r s : Fin 1024) :
    k1_pay1 (F := Ideal) i v19 v21 (ix2 r s)
      = if r = s then
          (1 : EReal) + Scalar.select (Scalar.cmpi .slt (BitVec.ofNat 32 (i 0).val) 6#32) v19 v21 (ix2 r (0 : Fin 1))
            * Scalar.select (Scalar.cmpi .slt (BitVec.ofNat 32 (i 0).val) 6#32) v19 v21 (ix2 r (0 : Fin 1))
        else 0 := by
  unfold k1_pay1
  dsimp only
  rw [select_apply]
  unfold Scalar.select
  refine (if_congr (diag_bit_iff _ _ r s) ?_ ?_)
  · rw [column_broadcast_apply, shapeCast_self, shapeCast_self, shapeCast_self]
    show Ideal.ofBits .f32 0x3F800000#32 + _ = _
    rw [Ideal.ofBits_one_f32]
    rfl
  · exact Ideal.ofBits_zero_f32

/-- THE CELL–DRUG TILE at (r, s): the column at r times the matrix tile at (r, s) times the row at s. -/
theorem pay2_apply (v18 : FVec Ideal S1024x1024 .f32) (v19 : FVec Ideal S1024x1 .f32) (v23 : FVec Ideal S1x1024 .f32) (r s : Fin 1024) :
    k1_pay2 (F := Ideal) v18 v19 v23 (ix2 r s) = v19 (ix2 r (0 : Fin 1)) * v18 (ix2 r s) * v23 (ix2 (0 : Fin 1) s) := by
  unfold k1_pay2
  rw [mulf_apply, mulf_apply, column_broadcast_apply, broadcastTo_1b_ab_apply, shapeCast_self, shapeCast_self]

/-- THE DRUG–CELL TILE at (r, s): the column at r times the matrix tile at (s, r) times the row at s. -/
theorem pay3_apply (v18 : FVec Ideal S1024x1024 .f32) (v19 : FVec Ideal S1024x1 .f32) (v24 : FVec Ideal S1x1024 .f32) (r s : Fin 1024) :
    k1_pay3 (F := Ideal) v18 v19 v24 (ix2 r s) = v19 (ix2 r (0 : Fin 1)) * v18 (ix2 s r) * v24 (ix2 (0 : Fin 1) s) := by
  unfold k1_pay3
  rw [mulf_apply, mulf_apply, column_broadcast_apply, broadcastTo_1b_ab_apply, transpose_ix2_apply, shapeCast_self, shapeCast_self]

/-- THE OTHER TILES are zero. -/
theorem pay4_apply (j : S1024x1024.Idx) : k1_pay4 (F := Ideal) j = 0 := by
  unfold k1_pay4
  exact Ideal.ofBits_zero_f32

end Cert.KernelIdeal.Hand

end
-- ==== Proof.KI.TileBlocks.lean ====
/-
  The second launch's input blocks at a point, read at an index, when memory holds the association matrix `x` and
  the four degree vectors.

  An element of a window's block at point `t` sits in the window's array, on each axis, at the block index times the
  block size plus its coordinate inside the block. With the block indices decided over the grid, the block of the
  cells' column at point `t` holds at row r the factor of cell 1024 · min (t / 8) 5 + r, the drugs' column that of drug
  1024 · (t / 8 − 6) + r, the cells' row at column s that of cell 1024 · min (t % 8) 5 + s, the drugs' row that of drug
  1024 · (t % 8 − 6) + s, and the matrix tile at (a, b) holds x at the tile's block index times 1024 plus (a, b).
-/
import proofs.«126346_j4002909520738_2_alg».proof.Proof.KI.Data
import proofs.«126346_j4002909520738_2_alg».proof.Proof.KI.Degrees
import proofs.«126346_j4002909520738_2_alg».proof.Proof.KI.TileIndex
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Cert.Proof

variable (V : (c : Dev nD) → (b : Ref sig .tc) → Buf (Elt Ideal) ((c : Thread nD τ).loc b))

/-- The matrix window's block at point `t` is the matrix at the block index times 1024 plus the index in the block. -/
theorem matrix_block (c : Dev nD) (t : Fin cfg1.N) (y : S1024x1024.Idx) (k : S6144x2048.Idx)
    (hk0 : (k 0).val = win1_0.index t (0 : Fin 2) * 1024 + (y 0).val)
    (hk1 : (k 1).val = win1_0.index t (1 : Fin 2) * 1024 + (y 1).val) :
    (iblk1 (F := Ideal) V c 0 t : FVec Ideal S1024x1024 .f32) y = (V c main_arg0 : S6144x2048.Idx → EReal) k := by
  unfold iblk1
  rw [View.read_apply]
  show V c main_arg0 _ = V c main_arg0 _
  refine congrArg (V c main_arg0) ?_
  funext a
  apply Fin.ext
  match a with
  | ⟨0, _⟩ => show win1_0.index t (0 : Fin 2) * 1024 + 1 * (y 0).val = (k 0).val; omega
  | ⟨1, _⟩ => show win1_0.index t (1 : Fin 2) * 1024 + 1 * (y 1).val = (k 1).val; omega

/-- The cells' column window's block at point `t`. -/
theorem cellCol_block (c : Dev nD) (t : Fin cfg1.N) (y : S1024x1.Idx) (k : S6144x1.Idx)
    (hk0 : (k 0).val = win1_1.index t (0 : Fin 2) * 1024 + (y 0).val)
    (hk1 : (k 1).val = win1_1.index t (1 : Fin 2) * 1 + (y 1).val) :
    (iblk1 (F := Ideal) V c 1 t : FVec Ideal S1024x1 .f32) y = (V c main_v3 : S6144x1.Idx → EReal) k := by
  unfold iblk1
  rw [View.read_apply]
  show V c main_v3 _ = V c main_v3 _
  refine congrArg (V c main_v3) ?_
  funext a
  apply Fin.ext
  match a with
  | ⟨0, _⟩ => show win1_1.index t (0 : Fin 2) * 1024 + 1 * (y 0).val = (k 0).val; omega
  | ⟨1, _⟩ => show win1_1.index t (1 : Fin 2) * 1 + 1 * (y 1).val = (k 1).val; omega

/-- The drugs' column window's block at point `t`. -/
theorem drugCol_block (c : Dev nD) (t : Fin cfg1.N) (y : S1024x1.Idx) (k : S2048x1.Idx)
    (hk0 : (k 0).val = win1_2.index t (0 : Fin 2) * 1024 + (y 0).val)
    (hk1 : (k 1).val = win1_2.index t (1 : Fin 2) * 1 + (y 1).val) :
    (iblk1 (F := Ideal) V c 2 t : FVec Ideal S1024x1 .f32) y = (V c main_v8 : S2048x1.Idx → EReal) k := by
  unfold iblk1
  rw [View.read_apply]
  show V c main_v8 _ = V c main_v8 _
  refine congrArg (V c main_v8) ?_
  funext a
  apply Fin.ext
  match a with
  | ⟨0, _⟩ => show win1_2.index t (0 : Fin 2) * 1024 + 1 * (y 0).val = (k 0).val; omega
  | ⟨1, _⟩ => show win1_2.index t (1 : Fin 2) * 1 + 1 * (y 1).val = (k 1).val; omega

/-- The cells' row window's block at point `t`. -/
theorem cellRow_block (c : Dev nD) (t : Fin cfg1.N) (y : S1x1024.Idx) (k : S1x6144.Idx)
    (hk0 : (k 0).val = win1_3.index t (0 : Fin 2) * 1 + (y 0).val)
    (hk1 : (k 1).val = win1_3.index t (1 : Fin 2) * 1024 + (y 1).val) :
    (iblk1 (F := Ideal) V c 3 t : FVec Ideal S1x1024 .f32) y = (V c main_v4 : S1x6144.Idx → EReal) k := by
  unfold iblk1
  rw [View.read_apply]
  show V c main_v4 _ = V c main_v4 _
  refine congrArg (V c main_v4) ?_
  funext a
  apply Fin.ext
  match a with
  | ⟨0, _⟩ => show win1_3.index t (0 : Fin 2) * 1 + 1 * (y 0).val = (k 0).val; omega
  | ⟨1, _⟩ => show win1_3.index t (1 : Fin 2) * 1024 + 1 * (y 1).val = (k 1).val; omega

/-- The drugs' row window's block at point `t`. -/
theorem drugRow_block (c : Dev nD) (t : Fin cfg1.N) (y : S1x1024.Idx) (k : S1x2048.Idx)
    (hk0 : (k 0).val = win1_4.index t (0 : Fin 2) * 1 + (y 0).val)
    (hk1 : (k 1).val = win1_4.index t (1 : Fin 2) * 1024 + (y 1).val) :
    (iblk1 (F := Ideal) V c 4 t : FVec Ideal S1x1024 .f32) y = (V c main_v7 : S1x2048.Idx → EReal) k := by
  unfold iblk1
  rw [View.read_apply]
  show V c main_v7 _ = V c main_v7 _
  refine congrArg (V c main_v7) ?_
  funext a
  apply Fin.ext
  match a with
  | ⟨0, _⟩ => show win1_4.index t (0 : Fin 2) * 1 + 1 * (y 0).val = (k 0).val; omega
  | ⟨1, _⟩ => show win1_4.index t (1 : Fin 2) * 1024 + 1 * (y 1).val = (k 1).val; omega

variable (c : Dev nD) (x : Spec.SX.Idx → EReal)

/-- The matrix tile at (a, b), when memory holds `x`: `x` at the tile's block index times 1024 plus (a, b). -/
theorem matrix_read (h0 : V c main_arg0 = x) (t : Fin cfg1.N) (a b : Fin 1024) (i : Fin 6144) (j : Fin 2048)
    (hi : i.val = win1_0.index t (0 : Fin 2) * 1024 + a.val) (hj : j.val = win1_0.index t (1 : Fin 2) * 1024 + b.val) :
    (iblk1 (F := Ideal) V c 0 t : FVec Ideal S1024x1024 .f32) (ix2 a b) = x (ix2 i j) :=
  (matrix_block V c t (ix2 a b) (ix2 i j) hi hj).trans (congrFun h0 (ix2 i j))

/-- The cells' column block at row r: the factor of cell 1024 · min (t / 8) 5 + r. -/
theorem cellCol_read (h3 : V c main_v3 = cellCol x) (t : Fin cfg1.N) (r : Fin 1024) (i : Fin 6144)
    (hi : i.val = 1024 * min (t.val / 8) 5 + r.val) :
    (iblk1 (F := Ideal) V c 1 t : FVec Ideal S1024x1 .f32) (ix2 r (0 : Fin 1)) = Spec.dCell x i := by
  obtain ⟨e10, e11, -⟩ := degree_index t
  refine (cellCol_block V c t (ix2 r (0 : Fin 1)) (ix2 i (0 : Fin 1)) ?_ ?_).trans (congrFun h3 (ix2 i (0 : Fin 1)))
  · show i.val = win1_1.index t (0 : Fin 2) * 1024 + r.val
    rw [e10, hi]; omega
  · show 0 = win1_1.index t (1 : Fin 2) * 1 + 0
    rw [e11]

/-- The drugs' column block at row r: the factor of drug 1024 · (t / 8 − 6) + r. -/
theorem drugCol_read (h8 : V c main_v8 = drugCol x) (t : Fin cfg1.N) (r : Fin 1024) (j : Fin 2048)
    (hj : j.val = 1024 * (t.val / 8 - 6) + r.val) :
    (iblk1 (F := Ideal) V c 2 t : FVec Ideal S1024x1 .f32) (ix2 r (0 : Fin 1)) = Spec.dDrug x j := by
  obtain ⟨-, -, e20, e21, -⟩ := degree_index t
  refine (drugCol_block V c t (ix2 r (0 : Fin 1)) (ix2 j (0 : Fin 1)) ?_ ?_).trans (congrFun h8 (ix2 j (0 : Fin 1)))
  · show j.val = win1_2.index t (0 : Fin 2) * 1024 + r.val
    rw [e20, hj]; omega
  · show 0 = win1_2.index t (1 : Fin 2) * 1 + 0
    rw [e21]

/-- The cells' row block at column s: the factor of cell 1024 · min (t % 8) 5 + s. -/
theorem cellRow_read (h4 : V c main_v4 = cellRow x) (t : Fin cfg1.N) (s : Fin 1024) (i : Fin 6144)
    (hi : i.val = 1024 * min (t.val % 8) 5 + s.val) :
    (iblk1 (F := Ideal) V c 3 t : FVec Ideal S1x1024 .f32) (ix2 (0 : Fin 1) s) = Spec.dCell x i := by
  obtain ⟨-, -, -, -, e30, e31, -⟩ := degree_index t
  refine (cellRow_block V c t (ix2 (0 : Fin 1) s) (ix2 (0 : Fin 1) i) ?_ ?_).trans (congrFun h4 (ix2 (0 : Fin 1) i))
  · show 0 = win1_3.index t (0 : Fin 2) * 1 + 0
    rw [e30]
  · show i.val = win1_3.index t (1 : Fin 2) * 1024 + s.val
    rw [e31, hi]; omega

/-- The drugs' row block at column s: the factor of drug 1024 · (t % 8 − 6) + s. -/
theorem drugRow_read (h7 : V c main_v7 = drugRow x) (t : Fin cfg1.N) (s : Fin 1024) (j : Fin 2048)
    (hj : j.val = 1024 * (t.val % 8 - 6) + s.val) :
    (iblk1 (F := Ideal) V c 4 t : FVec Ideal S1x1024 .f32) (ix2 (0 : Fin 1) s) = Spec.dDrug x j := by
  obtain ⟨-, -, -, -, -, -, e40, e41⟩ := degree_index t
  refine (drugRow_block V c t (ix2 (0 : Fin 1) s) (ix2 (0 : Fin 1) j) ?_ ?_).trans (congrFun h7 (ix2 (0 : Fin 1) j))
  · show 0 = win1_4.index t (0 : Fin 2) * 1 + 0
    rw [e40]
  · show j.val = win1_4.index t (1 : Fin 2) * 1024 + s.val
    rw [e41, hj]; omega

end Cert.KernelIdeal.Hand

end
-- ==== Proof.KI.EntryCases.lean ====
/-
  The specification's entry, case by case.

  Nodes below 6144 are cells, the others drugs. Inside a diagonal block (two cells, or two drugs) the block matrix is
  the identity, so the entry is 1 + d p · d p on the diagonal and 0 off it; in the cell–drug block it is
  d p · x (p, q − 6144) · d q, in the drug–cell block d p · x (q, p − 6144) · d q. Only 1 · a = a, 0 · a = 0 and
  0 + a = a are used, which hold for every extended real.
-/
import proofs.«126346_j4002909520738_2_alg».proof.Proof.Spec

noncomputable section

namespace Cert.KernelIdeal.Hand

open Idealize.ShloMosaic Idealize.ShloMosaic.ValueIdx Cert.Proof.Spec

/-- A cell's degree factor, by the cell's number. -/
theorem deg_cell (x : SX.Idx → EReal) (p : Fin 8192) (i : Fin 6144) (hi : i.val = p.val) : deg x p = dCell x i := by
  have h : p.val < 6144 := by have := i.isLt; omega
  unfold deg
  rw [dif_pos h]
  exact congrArg (dCell x) (Fin.ext hi.symm)

/-- A drug's degree factor, by the drug's number. -/
theorem deg_drug (x : SX.Idx → EReal) (p : Fin 8192) (j : Fin 2048) (hj : j.val + 6144 = p.val) : deg x p = dDrug x j := by
  have h : ¬ p.val < 6144 := by omega
  unfold deg
  rw [dif_neg h]
  exact congrArg (dDrug x) (Fin.ext (by show p.val - 6144 = j.val; omega))

/-- Between two nodes of one kind the block matrix is the identity. -/
theorem adj_same (x : SX.Idx → EReal) (p q : Fin 8192) (h : p.val < 6144 ↔ q.val < 6144) :
    adj x p q = if p = q then 1 else 0 := by
  unfold adj
  by_cases hp : p.val < 6144
  · rw [dif_pos hp, dif_pos (h.mp hp)]
  · rw [dif_neg hp, dif_neg (fun hq => hp (h.mpr hq))]

/-- From a cell to a drug the block matrix is the association matrix. -/
theorem adj_cell_drug (x : SX.Idx → EReal) (p q : Fin 8192) (i : Fin 6144) (j : Fin 2048) (hi : i.val = p.val)
    (hj : j.val + 6144 = q.val) : adj x p q = x (ix2 i j) := by
  have hp : p.val < 6144 := by have := i.isLt; omega
  have hq : ¬ q.val < 6144 := by omega
  unfold adj
  rw [dif_pos hp, dif_neg hq]
  have e1 : (⟨p.val, hp⟩ : Fin 6144) = i := Fin.ext hi.symm
  have e2 : (⟨q.val - 6144, by omega⟩ : Fin 2048) = j := Fin.ext (by show q.val - 6144 = j.val; omega)
  rw [e1, e2]

/-- From a drug to a cell it is the association matrix transposed. -/
theorem adj_drug_cell (x : SX.Idx → EReal) (p q : Fin 8192) (i : Fin 6144) (j : Fin 2048) (hi : i.val = q.val)
    (hj : j.val + 6144 = p.val) : adj x p q = x (ix2 i j) := by
  have hq : q.val < 6144 := by have := i.isLt; omega
  have hp : ¬ p.val < 6144 := by omega
  unfold adj
  rw [dif_neg hp, dif_pos hq]
  have e1 : (⟨q.val, hq⟩ : Fin 6144) = i := Fin.ext hi.symm
  have e2 : (⟨p.val - 6144, by omega⟩ : Fin 2048) = j := Fin.ext (by show p.val - 6144 = j.val; omega)
  rw [e1, e2]

/-- ON THE DIAGONAL the entry is 1 + d · d, with d the node's degree factor. -/
theorem entry_diag (x : SX.Idx → EReal) (p q : Fin 8192) (hpq : p = q) (d : EReal) (hd : deg x p = d) :
    entry x p q = 1 + d * d := by
  subst hpq
  unfold entry
  rw [if_pos rfl, adj_same x p p Iff.rfl, if_pos rfl, hd, mul_one]

/-- OFF THE DIAGONAL OF A DIAGONAL BLOCK the entry is 0. -/
theorem entry_same_off (x : SX.Idx → EReal) (p q : Fin 8192) (hpq : p ≠ q) (h : p.val < 6144 ↔ q.val < 6144) :
    entry x p q = 0 := by
  unfold entry
  rw [if_neg hpq, adj_same x p q h, if_neg hpq, mul_zero, zero_mul, add_zero]

/-- IN THE CELL–DRUG BLOCK the entry is the cell's factor times the association times the drug's factor. -/
theorem entry_cell_drug (x : SX.Idx → EReal) (p q : Fin 8192) (i : Fin 6144) (j : Fin 2048) (hi : i.val = p.val)
    (hj : j.val + 6144 = q.val) : entry x p q = dCell x i * x (ix2 i j) * dDrug x j := by
  have hpq : p ≠ q := fun e => by have := i.isLt; rw [e] at hi; omega
  unfold entry
  rw [if_neg hpq, adj_cell_drug x p q i j hi hj, deg_cell x p i hi, deg_drug x q j hj, zero_add]

/-- IN THE DRUG–CELL BLOCK the entry is the drug's factor times the association times the cell's factor. -/
theorem entry_drug_cell (x : SX.Idx → EReal) (p q : Fin 8192) (i : Fin 6144) (j : Fin 2048) (hi : i.val = q.val)
    (hj : j.val + 6144 = p.val) : entry x p q = dDrug x j * x (ix2 i j) * dCell x i := by
  have hpq : p ≠ q := fun e => by have := i.isLt; rw [← e] at hi; omega
  unfold entry
  rw [if_neg hpq, adj_drug_cell x p q i j hi hj, deg_drug x p j hj, deg_cell x q i hi, zero_add]

end Cert.KernelIdeal.Hand

end
-- ==== Proof.KI.TileEntry.lean ====
/-
  What the second launch leaves in tile (t / 8, t % 8) of the result, entry by entry, is the specification's entry.

  Entry (r, s) of the tile is entry (p, q) = (1024 · (t / 8) + r, 1024 · (t % 8) + s) of the result. By the tile's
  position: on the grid's diagonal the two nodes are of one kind, p = q exactly when r = s, and the stored value is
  1 + d · d there and 0 elsewhere, d being the factor of node p (a cell when t / 8 < 6, a drug otherwise); in the
  cell–drug block the stored value is the cell's factor times x (p, q − 6144) times the drug's factor; in the drug–cell
  block the drug's factor times x (q, p − 6144) times the cell's; every other tile lies inside a diagonal block and off
  the diagonal, where the entry is 0.
-/
import proofs.«126346_j4002909520738_2_alg».proof.Proof.KI.Data
import proofs.«126346_j4002909520738_2_alg».proof.Proof.KI.Degrees
import proofs.«126346_j4002909520738_2_alg».proof.Proof.KI.TileIndex
import proofs.«126346_j4002909520738_2_alg».proof.Proof.KI.TilePay
import proofs.«126346_j4002909520738_2_alg».proof.Proof.KI.TileBlocks
import proofs.«126346_j4002909520738_2_alg».proof.Proof.KI.EntryCases

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Cert.Proof

variable (V : (c : Dev nD) → (b : Ref sig .tc) → Buf (Elt Ideal) ((c : Thread nD τ).loc b))
variable (c : Dev nD) (x : Spec.SX.Idx → EReal)

/-- A TILE ON THE DIAGONAL. -/
theorem tile_diag (h3 : V c main_v3 = cellCol x) (h8 : V c main_v8 = drugCol x) (t : Fin cfg1.N) (hd : t.val / 8 = t.val % 8)
    (r s : Fin 1024) (p q : Fin 8192) (hp : p.val = 1024 * (t.val / 8) + r.val) (hq : q.val = 1024 * (t.val % 8) + s.val) :
    k1_pay1 (F := Ideal) (grid1.coords t) (iblk1 V c 1 t) (iblk1 V c 2 t) (ix2 r s) = Spec.entry x p q := by
  have hN : cfg1.N = 64 := Gen.N_1
  have ht := t.isLt
  have hr := r.isLt
  have hs := s.isLt
  refine (pay1_apply (grid1.coords t) (iblk1 V c 1 t) (iblk1 V c 2 t) r s).trans ?_
  by_cases hrs : r = s
  · rw [if_pos hrs]
    have hpq : p = q := Fin.ext (by rw [hp, hq, hd, hrs])
    by_cases hc : Scalar.cmpi .slt (BitVec.ofNat 32 ((grid1.coords t) 0).val) 6#32 = 1#1
    · have hI : t.val / 8 < 6 := (rowCell_iff t).mp hc
      have e := cellCol_read V c x h3 t r ⟨p.val, by omega⟩ (by show p.val = _; omega)
      rw [hc, select_one, e]
      exact (entry_diag x p q hpq _ (deg_cell x p ⟨p.val, by omega⟩ rfl)).symm
    · have hI : ¬ t.val / 8 < 6 := fun h => hc ((rowCell_iff t).mpr h)
      have e := drugCol_read V c x h8 t r ⟨p.val - 6144, by omega⟩ (by show p.val - 6144 = _; omega)
      rw [eq_zero_of_ne_one hc, select_zero, e]
      exact (entry_diag x p q hpq _ (deg_drug x p ⟨p.val - 6144, by omega⟩ (by show p.val - 6144 + 6144 = p.val; omega))).symm
  · rw [if_neg hrs]
    have hpq : p ≠ q := fun e => hrs (Fin.ext (by have := congrArg Fin.val e; omega))
    exact (entry_same_off x p q hpq (by constructor <;> intro h <;> omega)).symm

/-- A TILE IN THE CELL–DRUG BLOCK. -/
theorem tile_cell_drug (h0 : V c main_arg0 = x) (h3 : V c main_v3 = cellCol x) (h7 : V c main_v7 = drugRow x) (t : Fin cfg1.N)
    (hI : t.val / 8 < 6) (hJ : 6 ≤ t.val % 8)
    (r s : Fin 1024) (p q : Fin 8192) (hp : p.val = 1024 * (t.val / 8) + r.val) (hq : q.val = 1024 * (t.val % 8) + s.val) :
    k1_pay2 (F := Ideal) (iblk1 V c 0 t) (iblk1 V c 1 t) (iblk1 V c 4 t) (ix2 r s) = Spec.entry x p q := by
  have hN : cfg1.N = 64 := Gen.N_1
  have ht := t.isLt
  have hr := r.isLt
  have hs := s.isLt
  obtain ⟨m0, m1⟩ := (matrix_index t).1 ⟨hI, hJ⟩
  have e1 := cellCol_read V c x h3 t r ⟨p.val, by omega⟩ (by show p.val = _; omega)
  have e2 := matrix_read V c x h0 t r s ⟨p.val, by omega⟩ ⟨q.val - 6144, by omega⟩
    (by show p.val = _; rw [m0]; omega) (by show q.val - 6144 = _; rw [m1]; omega)
  have e3 := drugRow_read V c x h7 t s ⟨q.val - 6144, by omega⟩ (by show q.val - 6144 = _; omega)
  refine (pay2_apply (iblk1 V c 0 t) (iblk1 V c 1 t) (iblk1 V c 4 t) r s).trans ?_
  rw [e1, e2, e3]
  exact (entry_cell_drug x p q ⟨p.val, by omega⟩ ⟨q.val - 6144, by omega⟩ rfl (by show q.val - 6144 + 6144 = q.val; omega)).symm

/-- A TILE IN THE DRUG–CELL BLOCK. -/
theorem tile_drug_cell (h0 : V c main_arg0 = x) (h8 : V c main_v8 = drugCol x) (h4 : V c main_v4 = cellRow x) (t : Fin cfg1.N)
    (hI : 6 ≤ t.val / 8) (hJ : t.val % 8 < 6)
    (r s : Fin 1024) (p q : Fin 8192) (hp : p.val = 1024 * (t.val / 8) + r.val) (hq : q.val = 1024 * (t.val % 8) + s.val) :
    k1_pay3 (F := Ideal) (iblk1 V c 0 t) (iblk1 V c 2 t) (iblk1 V c 3 t) (ix2 r s) = Spec.entry x p q := by
  have hN : cfg1.N = 64 := Gen.N_1
  have ht := t.isLt
  have hr := r.isLt
  have hs := s.isLt
  obtain ⟨m0, m1⟩ := (matrix_index t).2 ⟨hI, hJ⟩
  have e1 := drugCol_read V c x h8 t r ⟨p.val - 6144, by omega⟩ (by show p.val - 6144 = _; omega)
  have e2 := matrix_read V c x h0 t s r ⟨q.val, by omega⟩ ⟨p.val - 6144, by omega⟩
    (by show q.val = _; rw [m0]; omega) (by show p.val - 6144 = _; rw [m1]; omega)
  have e3 := cellRow_read V c x h4 t s ⟨q.val, by omega⟩ (by show q.val = _; omega)
  refine (pay3_apply (iblk1 V c 0 t) (iblk1 V c 2 t) (iblk1 V c 3 t) r s).trans ?_
  rw [e1, e2, e3]
  exact (entry_drug_cell x p q ⟨q.val, by omega⟩ ⟨p.val - 6144, by omega⟩ rfl (by show p.val - 6144 + 6144 = p.val; omega)).symm

/-- ANY OTHER TILE: inside a diagonal block, off the diagonal. -/
theorem tile_zero (t : Fin cfg1.N) (h1 : ¬ t.val / 8 = t.val % 8) (h2 : ¬ (t.val / 8 < 6 ∧ 6 ≤ t.val % 8))
    (h3 : ¬ (6 ≤ t.val / 8 ∧ t.val % 8 < 6))
    (r s : Fin 1024) (p q : Fin 8192) (hp : p.val = 1024 * (t.val / 8) + r.val) (hq : q.val = 1024 * (t.val % 8) + s.val) :
    k1_pay4 (F := Ideal) (ix2 r s) = Spec.entry x p q := by
  have hN : cfg1.N = 64 := Gen.N_1
  have ht := t.isLt
  have hr := r.isLt
  have hs := s.isLt
  have hpq : p ≠ q := fun e => h1 (by have := congrArg Fin.val e; omega)
  exact (pay4_apply (ix2 r s)).trans (entry_same_off x p q hpq (by constructor <;> intro h <;> omega)).symm

/-- WHAT POINT `t` LEAVES in its tile, at (r, s), is the specification's entry (1024 · (t / 8) + r, 1024 · (t % 8) + s). -/
theorem out1_apply (h0 : V c main_arg0 = x) (h3 : V c main_v3 = cellCol x) (h8 : V c main_v8 = drugCol x)
    (h4 : V c main_v4 = cellRow x) (h7 : V c main_v7 = drugRow x) (t : Fin cfg1.N)
    (r s : Fin 1024) (p q : Fin 8192) (hp : p.val = 1024 * (t.val / 8) + r.val) (hq : q.val = 1024 * (t.val % 8) + s.val) :
    out1 (F := Ideal) V c t (ix2 r s) = Spec.entry x p q := by
  unfold out1
  by_cases c1 : k1_cond1 (grid1.coords t) = 1#1
  · rw [if_pos c1]
    exact tile_diag V c x h3 h8 t ((cond1_iff t).mp c1) r s p q hp hq
  · rw [if_neg c1]
    by_cases c2 : k1_cond2 (grid1.coords t) = 1#1
    · rw [if_pos c2]
      obtain ⟨hI, hJ⟩ := (cond2_iff t).mp c2
      exact tile_cell_drug V c x h0 h3 h7 t hI hJ r s p q hp hq
    · rw [if_neg c2]
      by_cases c3 : k1_cond3 (grid1.coords t) = 1#1
      · rw [if_pos c3]
        obtain ⟨hI, hJ⟩ := (cond3_iff t).mp c3
        exact tile_drug_cell V c x h0 h8 h4 t hI hJ r s p q hp hq
      · rw [if_neg c3]
        exact tile_zero x t (fun h => c1 ((cond1_iff t).mpr h)) (fun h => c2 ((cond2_iff t).mpr h))
          (fun h => c3 ((cond3_iff t).mpr h)) r s p q hp hq

end Cert.KernelIdeal.Hand

end
-- ==== Proof.KI.ResultValue.lean ====
/-
  The result array after the second launch is the specification's `G`.

  Every point of the 8 × 8 grid writes its tile back; what point `t` writes is tile (t / 8, t % 8) of `G` (the tile's
  entry (r, s) is the array's entry (1024 · (t / 8) + r, 1024 · (t % 8) + s)); and entry (p, q) of the array lies in the
  tile of point 8 · (p / 1024) + q / 1024. So the 64 tiles cover the array and each holds `G` there.
-/
import proofs.«126346_j4002909520738_2_alg».proof.Proof.KI.Data
import proofs.«126346_j4002909520738_2_alg».proof.Proof.KI.Degrees
import proofs.«126346_j4002909520738_2_alg».proof.Proof.KI.TileIndex
import proofs.«126346_j4002909520738_2_alg».proof.Proof.KI.TileEntry
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

open Cert.Proof

variable (V : (c : Dev nD) → (b : Ref sig .tc) → Buf (Elt Ideal) ((c : Thread nD τ).loc b))
variable (c : Dev nD) (x : Spec.SX.Idx → EReal)

/-- WHAT POINT `t` WRITES BACK is tile (t / 8, t % 8) of `G`. -/
theorem flushed_eq (h0 : V c main_arg0 = x) (h3 : V c main_v3 = cellCol x) (h8 : V c main_v8 = drugCol x)
    (h4 : V c main_v4 = cellRow x) (h7 : V c main_v7 = drugRow x) (t : Fin cfg1.N) :
    (dat1 (F := Ideal) V c).flushed 5 t = ((cfg1.win 5).blk t).view.read (Elt Ideal) (Spec.G x) := by
  have hN : cfg1.N = 64 := Gen.N_1
  have ht := t.isLt
  obtain ⟨e0, e1⟩ := tile_index t
  show (cfg1.win 5).cut (grid1.coords t) ((dat1 V c).after 5 t) = _
  rw [after1_5]
  funext j
  obtain ⟨r, s, rfl⟩ : ∃ (r : Fin 1024) (s : Fin 1024), j = ix2 r s := ⟨j 0, j 1, eq_ix2 j⟩
  have hr := r.isLt
  have hs := s.isLt
  rw [View.read_apply]
  show out1 V c t (ix2 r s) = Spec.G x (((cfg1.win 5).blk t).view.emb (ix2 r s))
  have hemb : ((cfg1.win 5).blk t).view.emb (ix2 r s)
      = ix2 (⟨1024 * (t.val / 8) + r.val, by omega⟩ : Fin 8192) (⟨1024 * (t.val % 8) + s.val, by omega⟩ : Fin 8192) := by
    funext a
    apply Fin.ext
    match a with
    | ⟨0, _⟩ => show win1_5.index t (0 : Fin 2) * 1024 + 1 * r.val = 1024 * (t.val / 8) + r.val; rw [e0]; omega
    | ⟨1, _⟩ => show win1_5.index t (1 : Fin 2) * 1024 + 1 * s.val = 1024 * (t.val % 8) + s.val; rw [e1]; omega
  rw [hemb, Spec.G_ix2]
  exact out1_apply V c x h0 h3 h8 h4 h7 t r s _ _ rfl rfl

/-- An entry of the array is in point `t`'s tile iff each coordinate is in the tile's range on its axis. -/
theorem mem_tile (t : Fin cfg1.N) (i : S8192x8192.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v9).slice (win1_5.rect t)).set ↔ _
  rw [View.set_slice_whole, Rect.mem_set_unit]
  exact Iff.rfl

/-- THE TILES COVER THE ARRAY: entry (p, q) lies in the tile of point 8 · (p / 1024) + q / 1024. -/
theorem covered (i : S8192x8192.Idx) :
    ∃ t : Fin cfg1.N, (cfg1.win 5).flush t = true ∧ i ∈ ((cfg1.win 5).blk t).view.set := by
  have hN : cfg1.N = 64 := Gen.N_1
  have h0 : (i 0).val < 8192 := (i 0).isLt
  have h1 : (i 1).val < 8192 := (i 1).isLt
  obtain ⟨t, ht⟩ : ∃ t : Fin cfg1.N, t.val = 8 * ((i 0).val / 1024) + (i 1).val / 1024 :=
    ⟨⟨8 * ((i 0).val / 1024) + (i 1).val / 1024, by omega⟩, rfl⟩
  obtain ⟨e0, e1⟩ := tile_index t
  refine ⟨t, flush1_5 t, ?_⟩
  rw [mem_tile]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 1024 ≤ (i 1).val ∧ (i 1).val < win1_5.index t (1 : Fin 2) * 1024 + 1024
    rw [e1, ht]; omega

/-- THE RESULT ARRAY after the second launch, entered from memory that holds the association matrix and the four
    degree vectors, is `G`. -/
theorem result_value (V : (c : Dev nD) → (b : Ref sig .tc) → Buf (Elt Ideal) ((c : Thread nD τ).loc b)) (c : Dev nD)
    (x : Cert.Proof.Spec.SX.Idx → EReal)
    (h0 : V c main_arg0 = x) (h3 : V c main_v3 = cellCol x) (h8 : V c main_v8 = drugCol x) (h4 : V c main_v4 = cellRow x)
    (h7 : V c main_v7 = drugRow x) :
    (dat1 (F := Ideal) V c).arrAt 5 cfg1.N = Cert.Proof.Spec.G x :=
  (dat1 (F := Ideal) V c).arrAt_eq_of_cover 5 (Spec.G x) (fun t _ => flushed_eq V c x h0 h3 h8 h4 h7 t) covered

end Cert.KernelIdeal.Hand

end
-- ==== Proof.RefRowSum.lean ====
/-
  The row sums of the block matrix `[[I, x], [xᵀ, I]]`: a sum over its 8192 columns splits into the first 6144 and the
  last 2048; in a cell's row the identity block contributes exactly one and the other block the row of `x`, in a drug's
  row the transposed block contributes the column of `x` and the identity block exactly one. Hence the inverse square
  root of a row sum (the sum started from zero) is the node's degree factor.
-/
import proofs.«126346_j4002909520738_2_alg».proof.Proof.Spec

noncomputable section

namespace Cert.Proof.RefRowSum

open Idealize.ShloMosaic Idealize.ShloMosaic.ValueIdx Cert.Proof.Spec

/-- The block matrix in its four blocks. -/
theorem adj_cell_cell (x : SX.Idx → EReal) (p q : Fin 8192) (hp : p.val < 6144) (hq : q.val < 6144) :
    adj x p q = if p = q then 1 else 0 := by
  unfold adj; rw [dif_pos hp, dif_pos hq]

theorem adj_cell_drug (x : SX.Idx → EReal) (p q : Fin 8192) (hp : p.val < 6144) (hq : ¬ q.val < 6144) :
    adj x p q = x (ix2 ⟨p.val, hp⟩ ⟨q.val - 6144, by omega⟩) := by
  unfold adj; rw [dif_pos hp, dif_neg hq]

theorem adj_drug_cell (x : SX.Idx → EReal) (p q : Fin 8192) (hp : ¬ p.val < 6144) (hq : q.val < 6144) :
    adj x p q = x (ix2 ⟨q.val, hq⟩ ⟨p.val - 6144, by omega⟩) := by
  unfold adj; rw [dif_neg hp, dif_pos hq]

theorem adj_drug_drug (x : SX.Idx → EReal) (p q : Fin 8192) (hp : ¬ p.val < 6144) (hq : ¬ q.val < 6144) :
    adj x p q = if p = q then 1 else 0 := by
  unfold adj; rw [dif_neg hp, dif_neg hq]

/-- A sum over the 8192 = 6144 + 2048 columns, split into the first 6144 and the last 2048. -/
theorem sum_split (f : Fin 8192 → EReal) :
    ∑ q : Fin 8192, f q
      = ∑ a : Fin 6144, f ⟨a.val, by omega⟩ + ∑ b : Fin 2048, f ⟨b.val + 6144, by omega⟩ := by
  refine (Fin.sum_univ_add (a := 6144) (b := 2048) f).trans ?_
  refine congrArg₂ (· + ·) (Finset.sum_congr rfl fun a _ => congrArg f (Fin.ext rfl))
    (Finset.sum_congr rfl fun b _ => congrArg f (Fin.ext (Nat.add_comm _ _)))

/-- A cell's row sums to one (the identity block) plus its row of `x`. -/
theorem rowsum_cell (x : SX.Idx → EReal) (p : Fin 8192) (hp : p.val < 6144) :
    ∑ q : Fin 8192, adj x p q = 1 + ∑ k : Fin 2048, x (ix2 ⟨p.val, hp⟩ k) := by
  rw [sum_split]
  refine congrArg₂ (· + ·) ?_ (Finset.sum_congr rfl fun b _ => ?_)
  · refine (Fintype.sum_eq_single (⟨p.val, hp⟩ : Fin 6144) fun a ha => ?_).trans ?_
    · rw [adj_cell_cell x p _ hp a.isLt]
      refine if_neg ?_
      intro h
      exact ha (Fin.ext (congrArg Fin.val h).symm)
    · rw [adj_cell_cell x p _ hp hp]
      exact if_pos (Fin.ext rfl)
  · rw [adj_cell_drug x p _ hp (by show ¬ b.val + 6144 < 6144; omega)]
    exact congrArg (fun k => x (ix2 ⟨p.val, hp⟩ k)) (Fin.ext (by show b.val + 6144 - 6144 = b.val; omega))

/-- A drug's row sums to its column of `x` plus one (the identity block). -/
theorem rowsum_drug (x : SX.Idx → EReal) (p : Fin 8192) (hp : ¬ p.val < 6144) :
    ∑ q : Fin 8192, adj x p q = 1 + ∑ i : Fin 6144, x (ix2 i ⟨p.val - 6144, by omega⟩) := by
  rw [sum_split, add_comm]
  refine congrArg₂ (· + ·) ?_ (Finset.sum_congr rfl fun a _ => ?_)
  · refine (Fintype.sum_eq_single (⟨p.val - 6144, by omega⟩ : Fin 2048) fun b hb => ?_).trans ?_
    · rw [adj_drug_drug x p _ hp (by show ¬ b.val + 6144 < 6144; omega)]
      refine if_neg ?_
      intro h
      refine hb (Fin.ext ?_)
      have h' : p.val = b.val + 6144 := congrArg Fin.val h
      show b.val = p.val - 6144
      omega
    · rw [adj_drug_drug x p _ hp (by show ¬ p.val - 6144 + 6144 < 6144; omega)]
      exact if_pos (Fin.ext (by show p.val = p.val - 6144 + 6144; omega))
  · rw [adj_drug_cell x p _ hp a.isLt]

/-- The inverse square root of a node's row sum, the sum started from zero, is the node's degree factor. -/
theorem rsqrt_rowsum (x : SX.Idx → EReal) (p : Fin 8192) :
    Ideal.rsqrt ((0 : EReal) + ∑ q : Fin 8192, adj x p q) = deg x p := by
  rw [zero_add]
  unfold deg
  by_cases hp : p.val < 6144
  · rw [dif_pos hp, rowsum_cell x p hp]; rfl
  · rw [dif_neg hp, rowsum_drug x p hp]; rfl

end Cert.Proof.RefRowSum

end
-- ==== Proof.RefIndex.lean ====
/-
  The reference's arrays read at an entry. The three identity matrices (an integer comparison of the row number with the
  column number, converted to a float) have entry one on the diagonal and zero off it; the two concatenations along the
  columns and the one along the rows assemble the block matrix `[[I, x], [xᵀ, I]]`, whose entry is `Spec.adj`.
-/
import proofs.«126346_j4002909520738_2_alg».proof.Proof.RefRead
import proofs.«126346_j4002909520738_2_alg».proof.Proof.RefRowSum

noncomputable section

namespace Cert.Proof.RefIndex

open Idealize.ShloMosaic Idealize.ShloMosaic.ValueIdx Cert.ReferenceIdeal Cert.ReferenceIdeal.Gen Cert.ReferenceIdeal.ReadP
open Cert.Proof.Spec Cert.Proof.RefRowSum

/-- The comparison of two small naturals as 32-bit words, converted to a float: one if they are equal, else zero. -/
theorem eye_word (p q : Nat) (hp : p < 8192) (hq : q < 8192) :
    FloatOps.uitofp (F := Ideal) .f32 (IntOp.cmpi .eq (IntOp.addi (BitVec.ofNat 32 p) 0#32) (BitVec.ofNat 32 q))
      = if p = q then (1 : EReal) else 0 := by
  have e : IntOp.cmpi .eq (IntOp.addi (BitVec.ofNat 32 p) 0#32) (BitVec.ofNat 32 q) = BitVec.ofBool (decide (p = q)) := by
    unfold IntOp.cmpi IntOp.addi
    rw [BitVec.add_zero]
    refine congrArg BitVec.ofBool ?_
    by_cases h : p = q
    · subst h; simp
    · have hne : BitVec.ofNat 32 p ≠ BitVec.ofNat 32 q := by
        intro hh
        have := congrArg BitVec.toNat hh
        simp only [BitVec.toNat_ofNat] at this
        omega
      simp [h, hne]
  rw [e]
  show (((BitVec.ofBool (decide (p = q))).toNat : ℝ) : EReal) = _
  by_cases h : p = q
  · simp [h]
  · simp [h]

/-- The 6144 × 6144 identity at an entry. -/
theorem eye6144 (p q : Fin 6144) : val_main_v5 (F := Ideal) (ix2 p q) = if p = q then 1 else 0 := by
  rw [val_main_v5_apply, val_main_v4_apply, val_main_v3_apply, val_main_v0_apply, val_main_v2_apply, val_main_c_apply,
    val_main_v1_apply]
  refine (eye_word p.val q.val (by omega) (by omega)).trans ?_
  exact if_congr Fin.ext_iff.symm rfl rfl

/-- The 2048 × 2048 identity at an entry. -/
theorem eye2048 (p q : Fin 2048) : val_main_v13 (F := Ideal) (ix2 p q) = if p = q then 1 else 0 := by
  rw [val_main_v13_apply, val_main_v12_apply, val_main_v11_apply, val_main_v8_apply, val_main_v10_apply, val_main_c_0_apply,
    val_main_v9_apply]
  refine (eye_word p.val q.val (by omega) (by omega)).trans ?_
  exact if_congr Fin.ext_iff.symm rfl rfl

/-- The 8192 × 8192 identity at an entry. -/
theorem eye8192 (p q : Fin 8192) : val_main_v23 (F := Ideal) (ix2 p q) = if p = q then 1 else 0 := by
  rw [val_main_v23_apply, val_main_v22_apply, val_main_v21_apply, val_main_v18_apply, val_main_v20_apply, val_main_c_1_apply,
    val_main_v19_apply]
  refine (eye_word p.val q.val (by omega) (by omega)).trans ?_
  exact if_congr Fin.ext_iff.symm rfl rfl

variable (x0 : SX.Idx → EReal)

/-- The upper block row `[I, x]`: left of column 6144 the identity. -/
theorem upper_left (p : Fin 6144) (q : Fin 8192) (hq : q.val < 6144) :
    val_main_v6 (F := Ideal) x0 (ix2 p q) = val_main_v5 (F := Ideal) (ix2 p ⟨q.val, hq⟩) := by
  unfold val_main_v6
  generalize val_main_v5 (F := Ideal) = e
  exact concatenate_pair_apply_left _ e x0 concatenates_S6144x6144_S6144x2048_S6144x8192_d1 (ix2 p q) rfl
    (ix2 p ⟨q.val, hq⟩) (fun b => match b with | ⟨0, _⟩ => rfl | ⟨1, _⟩ => rfl)

/-- The upper block row `[I, x]`: from column 6144 on, `x`. -/
theorem upper_right (p : Fin 6144) (q : Fin 8192) (hq : ¬ q.val < 6144) :
    val_main_v6 (F := Ideal) x0 (ix2 p q) = x0 (ix2 p ⟨q.val - 6144, by omega⟩) := by
  unfold val_main_v6
  generalize val_main_v5 (F := Ideal) = e
  exact concatenate_pair_apply_right _ e x0 concatenates_S6144x6144_S6144x2048_S6144x8192_d1 (ix2 p q) rfl rfl
    (ix2 p ⟨q.val - 6144, by omega⟩)
    (fun b => match b with | ⟨0, _⟩ => fun _ => rfl | ⟨1, _⟩ => fun h => absurd rfl h)
    (by show q.val - 6144 + 6144 = q.val; omega)

/-- The lower block row `[xᵀ, I]`: left of column 6144 the transpose of `x`. -/
theorem lower_left (p : Fin 2048) (q : Fin 8192) (hq : q.val < 6144) :
    val_main_v14 (F := Ideal) x0 (ix2 p q) = x0 (ix2 ⟨q.val, hq⟩ p) := by
  unfold val_main_v14
  generalize val_main_v13 (F := Ideal) = e
  refine (concatenate_pair_apply_left _ (val_main_v7 (F := Ideal) x0) e concatenates_S2048x6144_S2048x2048_S2048x8192_d1
    (ix2 p q) rfl (ix2 p ⟨q.val, hq⟩) (fun b => match b with | ⟨0, _⟩ => rfl | ⟨1, _⟩ => rfl)).trans ?_
  rw [val_main_v7_apply]
  exact congrArg x0 (funext fun a => match a with | ⟨0, _⟩ => rfl | ⟨1, _⟩ => rfl)

/-- The lower block row `[xᵀ, I]`: from column 6144 on, the identity. -/
theorem lower_right (p : Fin 2048) (q : Fin 8192) (hq : ¬ q.val < 6144) :
    val_main_v14 (F := Ideal) x0 (ix2 p q) = val_main_v13 (F := Ideal) (ix2 p ⟨q.val - 6144, by omega⟩) := by
  unfold val_main_v14
  generalize val_main_v13 (F := Ideal) = e
  exact concatenate_pair_apply_right _ (val_main_v7 (F := Ideal) x0) e concatenates_S2048x6144_S2048x2048_S2048x8192_d1
    (ix2 p q) rfl rfl (ix2 p ⟨q.val - 6144, by omega⟩)
    (fun b => match b with | ⟨0, _⟩ => fun _ => rfl | ⟨1, _⟩ => fun h => absurd rfl h)
    (by show q.val - 6144 + 6144 = q.val; omega)

/-- The block matrix: above row 6144 the upper block row. -/
theorem block_upper (p q : Fin 8192) (hp : p.val < 6144) :
    val_main_v15 (F := Ideal) x0 (ix2 p q) = val_main_v6 (F := Ideal) x0 (ix2 ⟨p.val, hp⟩ q) := by
  unfold val_main_v15
  generalize val_main_v6 (F := Ideal) x0 = u
  generalize val_main_v14 (F := Ideal) x0 = l
  exact concatenate_pair_apply_left _ u l concatenates_S6144x8192_S2048x8192_S8192x8192_d0 (ix2 p q) rfl
    (ix2 ⟨p.val, hp⟩ q) (fun b => match b with | ⟨0, _⟩ => rfl | ⟨1, _⟩ => rfl)

/-- The block matrix: from row 6144 on, the lower block row. -/
theorem block_lower (p q : Fin 8192) (hp : ¬ p.val < 6144) :
    val_main_v15 (F := Ideal) x0 (ix2 p q) = val_main_v14 (F := Ideal) x0 (ix2 ⟨p.val - 6144, by omega⟩ q) := by
  unfold val_main_v15
  generalize val_main_v6 (F := Ideal) x0 = u
  generalize val_main_v14 (F := Ideal) x0 = l
  exact concatenate_pair_apply_right _ u l concatenates_S6144x8192_S2048x8192_S8192x8192_d0 (ix2 p q) rfl rfl
    (ix2 ⟨p.val - 6144, by omega⟩ q)
    (fun b => match b with | ⟨0, _⟩ => fun h => absurd rfl h | ⟨1, _⟩ => fun _ => rfl)
    (by show p.val - 6144 + 6144 = p.val; omega)

/-- The block matrix `[[I, x], [xᵀ, I]]` at an entry. -/
theorem block_eq_adj (p q : Fin 8192) : val_main_v15 (F := Ideal) x0 (ix2 p q) = adj x0 p q := by
  by_cases hp : p.val < 6144
  · rw [block_upper x0 p q hp]
    by_cases hq : q.val < 6144
    · rw [upper_left x0 _ q hq, eye6144, adj_cell_cell x0 p q hp hq]
      exact if_congr (by rw [Fin.ext_iff, Fin.ext_iff]) rfl rfl
    · rw [upper_right x0 _ q hq, adj_cell_drug x0 p q hp hq]
  · rw [block_lower x0 p q hp]
    by_cases hq : q.val < 6144
    · rw [lower_left x0 _ q hq, adj_drug_cell x0 p q hp hq]
    · rw [lower_right x0 _ q hq, eye2048, adj_drug_drug x0 p q hp hq]
      refine if_congr ?_ rfl rfl
      rw [Fin.ext_iff, Fin.ext_iff]
      show p.val - 6144 = q.val - 6144 ↔ p.val = q.val
      omega

end Cert.Proof.RefIndex

end
-- ==== Proof.RefDeg.lean ====
/-
  The reference's degree vector: the row sum of the block matrix over its 8192 columns, started from the constant zero,
  and its inverse square root, is the node's degree factor `Spec.deg`.
-/
import proofs.«126346_j4002909520738_2_alg».proof.Proof.RefIndex

noncomputable section

namespace Cert.Proof.RefDeg

open Idealize.ShloMosaic Idealize.ShloMosaic.ValueIdx Cert.ReferenceIdeal Cert.ReferenceIdeal.Gen Cert.ReferenceIdeal.ReadP
open Cert.Proof.Spec Cert.Proof.RefRowSum Cert.Proof.RefIndex

variable (x0 : SX.Idx → EReal)

/-- The row sum at a node: zero plus the sum of the block matrix's row. -/
theorem rowsum_apply (p : Fin 8192) :
    val_main_v16 (F := Ideal) x0 (ix1 p) = (0 : EReal) + ∑ k : Fin 8192, adj x0 p k := by
  rw [val_main_v16_apply, val_main_cst_apply, Ideal.ofBits_def, Ideal.ofBits_zero_f32]
  refine congrArg ((0 : EReal) + ·) (Finset.sum_congr rfl fun k _ => ?_)
  have e : idx_main_v16 (ix1 p) k = ix2 p k := funext fun a => match a with | ⟨0, _⟩ => rfl | ⟨1, _⟩ => rfl
  rw [e, block_eq_adj]

/-- The degree vector at a node. -/
theorem deg_apply (p : Fin 8192) : val_main_v17 (F := Ideal) x0 (ix1 p) = deg x0 p := by
  rw [val_main_v17_apply, Ideal.hostUnary_rsqrt_def, rowsum_apply, rsqrt_rowsum]

end Cert.Proof.RefDeg

end
-- ==== Proof.RefValue.lean ====
/-
  The reference program computes the specification: its result array, read entry by entry, is
  `δ p q + d p · A p q · d q` with `A` the block matrix and `d` the degree factors, which is `Spec.G` of the argument; and
  its run leaves the argument array as launched.
-/
import proofs.«126346_j4002909520738_2_alg».proof.Proof.RefRun
import proofs.«126346_j4002909520738_2_alg».proof.Proof.RefDeg

noncomputable section

namespace Cert.Proof.RefValue

open Idealize.ShloMosaic Idealize.ShloMosaic.ValueIdx Idealize.SL.Sem Cert.ReferenceIdeal Cert.ReferenceIdeal.Gen Cert.ReferenceIdeal.ReadP
open Cert.Proof.Spec Cert.Proof.RefIndex Cert.Proof.RefDeg

/-- The reference's last stage is the specification, entry by entry. -/
theorem stage_eq_G (x0 : SX.Idx → EReal) : val_main_v30 (F := Ideal) x0 = G x0 := by
  funext j
  obtain ⟨p, q, rfl⟩ : ∃ (p q : Fin 8192), j = ix2 p q := ⟨j 0, j 1, eq_ix2 j⟩
  have e1 : idx_main_v24 (idx_main_v25 (ix2 p q)) = ix1 p := funext fun a => match a with | ⟨0, _⟩ => rfl
  have e2 : idx_main_v27 (idx_main_v28 (ix2 p q)) = ix1 q := funext fun a => match a with | ⟨0, _⟩ => rfl
  rw [G_ix2, val_main_v30_apply, val_main_v29_apply, val_main_v26_apply, val_main_v25_apply, val_main_v24_apply,
    val_main_v28_apply, val_main_v27_apply, e1, e2, eye8192, block_eq_adj, deg_apply, deg_apply]
  rfl

/-- The reference's run: the result array is the specification of the argument array, which is left as launched. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v30)
            = Cert.Proof.Spec.G (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans ((val_main_v30_eq _).trans (stage_eq_G _)), (h c).2⟩)
    (Cert.ReferenceIdeal.ValueP.run (F := Ideal) m ρ)

end Cert.Proof.RefValue

end
-- ==== Proof.KI.Algebraic.lean ====
/-
  The two idealized programs compute one function. From memories that agree on the association matrix `x`, the
  kernel program ends with its result array at what launch 1's write-backs leave, which is the specification's
  `G x` (launch 0 and the host operations give launch 1 the degree factors; each result tile is then the matching block
  of `δ + D A D`), and the reference ends with its result at `G x` as well (its row sums of the block matrix are
  `1 +` the association matrix's row or column sums). Both leave the argument unchanged.
-/
import proofs.«126346_j4002909520738_2_alg».proof.Defs
import proofs.«126346_j4002909520738_2_alg».proof.Proof.Gen.Pre_finite_inputs
import proofs.«126346_j4002909520738_2_alg».proof.Proof.KI.Run
import proofs.«126346_j4002909520738_2_alg».proof.Proof.KI.StatsBody
import proofs.«126346_j4002909520738_2_alg».proof.Proof.KI.BuildBody
import proofs.«126346_j4002909520738_2_alg».proof.Proof.KI.DegreesValue
import proofs.«126346_j4002909520738_2_alg».proof.Proof.KI.ResultValue
import proofs.«126346_j4002909520738_2_alg».proof.Proof.RefValue

noncomputable section

namespace Cert.Proof.Algebraic

open Idealize.ShloMosaic Idealize.ShloMosaic.TcCoe Idealize.SL.Sem

/-- Both idealized programs end with the result array at `G` of the shared argument. -/
theorem algebraic : Cert.algebraic_KernelIdeal_ReferenceIdeal := by
  intro m ρ m' ρ' _ hagree
  refine ⟨fun c => Cert.Proof.Spec.G (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Hand.run_result (F := Ideal) m ρ Cert.KernelIdeal.Hand.body_obligation0 Cert.KernelIdeal.Hand.body_obligation1)
    obtain ⟨h0, h3, h8, h4, h7⟩ := Cert.KernelIdeal.Hand.degrees_value m ρ c
    exact Cert.KernelIdeal.Hand.result_value (Cert.KernelIdeal.Hand.V2 m ρ) c _ h0 h3 h8 h4 h7
  · refine (θ_run Cert.ReferenceIdeal.defs _ _).mono (fun _ h c => ⟨(h c).1.trans ?_, (h c).2⟩)
      (Cert.Proof.RefValue.run_G m' ρ')
    rw [hagree c]

end Cert.Proof.Algebraic

end
-- ==== Proof.RefFrame.lean ====
/-
  The reference program's frame: its run (every operation a host operation, so the run is the composed pure term of
  the argument array) terminates without a fault and leaves the argument array as launched.
-/
import proofs.«126346_j4002909520738_2_alg».proof.Defs
import proofs.«126346_j4002909520738_2_alg».proof.Proof.Gen.ReferenceIdeal
import proofs.«126346_j4002909520738_2_alg».proof.Proof.Gen.Pre_finite_inputs
import proofs.«126346_j4002909520738_2_alg».proof.Proof.RefRun

noncomputable section

namespace Cert.Proof.RefFrame

open Idealize.ShloMosaic Idealize.SL.Sem

/-- The reference's frame: its run with the result dropped. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.lean ====
/-
  The certificate. A bipartite cell–drug association matrix `x` (6144 × 2048) is turned into the normalised adjacency
  `I + D^(-1/2) A D^(-1/2)` of the block matrix `A = [[I, x], [xᵀ, I]]` on 8192 nodes. The kernel program does it in two
  launches: the first streams `x` once for its row sums and (accumulated over six row tiles) its column sums; host
  operations turn `1 +` those sums into inverse square roots; the second writes the 8192 × 8192 result tile by tile —
  scaled identity on diagonal tiles, the scaled tile of `x` or of `xᵀ` on the cross blocks, zeros elsewhere. The
  reference builds `A` by concatenation, sums its rows, and scales. Over the extended reals every entry agrees:
  `0 + a = a`, `a · 0 = 0`, `a · 1 = a` and the free reordering of sums are all that is used, so the inputs'
  finiteness is never opened.

  The three frames: each kernel program's run is assembled from its two launches' body obligations (the word-level
  program and its idealization share one text, read at the two float instances); the reference is host operations only.
  The idealization rewrote nothing, so it preserves the kernel trivially.
-/
import proofs.«126346_j4002909520738_2_alg».proof.Defs
import proofs.«126346_j4002909520738_2_alg».proof.Proof.Gen.Kernel
import proofs.«126346_j4002909520738_2_alg».proof.Proof.Gen.KernelIdeal
import proofs.«126346_j4002909520738_2_alg».proof.Proof.Gen.ReferenceIdeal
import proofs.«126346_j4002909520738_2_alg».proof.Proof.Gen.Pre_finite_inputs
import proofs.«126346_j4002909520738_2_alg».proof.Proof.K.Run
import proofs.«126346_j4002909520738_2_alg».proof.Proof.K.StatsBody
import proofs.«126346_j4002909520738_2_alg».proof.Proof.K.BuildBody
import proofs.«126346_j4002909520738_2_alg».proof.Proof.KI.Run
import proofs.«126346_j4002909520738_2_alg».proof.Proof.KI.StatsBody
import proofs.«126346_j4002909520738_2_alg».proof.Proof.KI.BuildBody
import proofs.«126346_j4002909520738_2_alg».proof.Proof.KI.Algebraic
import proofs.«126346_j4002909520738_2_alg».proof.Proof.RefFrame
import Idealize.ShloMosaic.Adequacy
import Idealize.ShloMosaic.Init

noncomputable section

namespace Cert.Proof

open Idealize.ShloMosaic Idealize.SL.Sem

/-- The word-level kernel program runs to the end and leaves the argument as launched. -/
theorem frame_k : Cert.frame_Kernel := fun m ρ _ =>
  Cert.Kernel.Hand.frame (F := Bits) m ρ Cert.Kernel.Hand.body_obligation0 Cert.Kernel.Hand.body_obligation1

/-- So does its idealization. -/
theorem frame_ki : Cert.frame_KernelIdeal := fun m ρ _ =>
  Cert.KernelIdeal.Hand.frame (F := Ideal) m ρ Cert.KernelIdeal.Hand.body_obligation0 Cert.KernelIdeal.Hand.body_obligation1

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, Cert.Proof.Algebraic.algebraic⟩

end Cert.Proof

end
